-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1600000 : Shape := ⟨2, ![2, 1600000]⟩
abbrev S50000x128 : Shape := ⟨2, ![50000, 128]⟩
abbrev S2x128x128 : Shape := ⟨3, ![2, 128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S2x128x128 : S_.BroadcastsInDim S2x128x128 (![] : Fin 0 → Fin S2x128x128.rank)
  reducesTo_S2x128x128_S_d0_1_2 : S2x128x128.ReducesTo [0, 1, 2] S_
  bcast_S_S128 : S_.BroadcastsInDim S128 (![] : Fin 0 → Fin S128.rank)
  reducesTo_S128_S_d0 : S128.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S128 .f32) (main_arg13 : FVec F S2x128x128 .f32) (main_arg14 : FVec F S128 .f32) (main_v48 : IVec S_ 1) (main_v49 : FVec F S2x128x128 .f32) (main_v50 : FVec F S2x128x128 .f32) : IVec S_ 1 :=
  let main_v51 : IVec S2x128x128 1 := cmpf .olt main_v49 main_v50
  let main_c_19 : IVec S_ 1 := constantI S_ 1 1#1
  let main_v52 : IVec S_ 1 := (fun x v => Host.reduce IntOp.andi x v reducesTo_S2x128x128_S_d0_1_2 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S2x128x128 .f32 := Host.absf main_arg13
  let main_cst_22 : FVec F S_ .f32 := constant S_ .f32 0x7F800000#32
  let main_v60 : FVec F S2x128x128 .f32 := broadcastInDim S2x128x128 ![] bcast_S_S2x128x128 main_cst_22
  let main_v61 : IVec S2x128x128 1 := cmpf .olt main_v59 main_v60
  let main_c_23 : IVec S_ 1 := constantI S_ 1 1#1
  let main_v62 : IVec S_ 1 := (fun x v => Host.reduce IntOp.andi x v reducesTo_S2x128x128_S_d0_1_2 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg8 : FVec F S128 .f32) (main_arg9 : FVec F S2x128x128 .f32) (main_arg10 : FVec F S128 .f32) (main_arg11 : FVec F S2x128x128 .f32) (main_arg12 : FVec F S128 .f32) (main_arg13 : FVec F S2x128x128 .f32) (main_arg14 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S2x128x128 .f32 := Host.absf main_arg9
  let main_cst_14 : FVec F S_ .f32 := constant S_ .f32 0x7F800000#32
  let main_v40 : FVec F S2x128x128 .f32 := broadcastInDim S2x128x128 ![] bcast_S_S2x128x128 main_cst_14
  let main_v41 : IVec S2x128x128 1 := cmpf .olt main_v39 main_v40
  let main_c_15 : IVec S_ 1 := constantI S_ 1 1#1
  let main_v42 : IVec S_ 1 := (fun x v => Host.reduce IntOp.andi x v reducesTo_S2x128x128_S_d0_1_2 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S2x128x128 .f32 := Host.absf main_arg11
  let main_cst_18 : FVec F S_ .f32 := constant S_ .f32 0x7F800000#32
  let main_v50 : FVec F S2x128x128 .f32 := broadcastInDim S2x128x128 ![] bcast_S_S2x128x128 main_cst_18
  fn_part3 (F := F) main_arg12 main_arg13 main_arg14 main_v48 main_v49 main_v50

def fn_part1 {F : FTy → Type} [FloatOps F] (main_arg5 : FVec F S2x128x128 .f32) (main_arg6 : FVec F S128 .f32) (main_arg7 : FVec F S2x128x128 .f32) (main_arg8 : FVec F S128 .f32) (main_arg9 : FVec F S2x128x128 .f32) (main_arg10 : FVec F S128 .f32) (main_arg11 : FVec F S2x128x128 .f32) (main_arg12 : FVec F S128 .f32) (main_arg13 : FVec F S2x128x128 .f32) (main_arg14 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S2x128x128 .f32 := Host.absf main_arg5
  let main_cst_6 : FVec F S_ .f32 := constant S_ .f32 0x7F800000#32
  let main_v20 : FVec F S2x128x128 .f32 := broadcastInDim S2x128x128 ![] bcast_S_S2x128x128 main_cst_6
  let main_v21 : IVec S2x128x128 1 := cmpf .olt main_v19 main_v20
  let main_c_7 : IVec S_ 1 := constantI S_ 1 1#1
  let main_v22 : IVec S_ 1 := (fun x v => Host.reduce IntOp.andi x v reducesTo_S2x128x128_S_d0_1_2 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S2x128x128 .f32 := Host.absf main_arg7
  let main_cst_10 : FVec F S_ .f32 := constant S_ .f32 0x7F800000#32
  let main_v30 : FVec F S2x128x128 .f32 := broadcastInDim S2x128x128 ![] bcast_S_S2x128x128 main_cst_10
  let main_v31 : IVec S2x128x128 1 := cmpf .olt main_v29 main_v30
  let main_c_11 : IVec S_ 1 := constantI S_ 1 1#1
  let main_v32 : IVec S_ 1 := (fun x v => Host.reduce IntOp.andi x v reducesTo_S2x128x128_S_d0_1_2 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : IVec S2x1600000 32) (main_arg1 : FVec F S50000x128 .f32) (main_arg2 : FVec F S50000x128 .f32) (main_arg3 : FVec F S2x128x128 .f32) (main_arg4 : FVec F S128 .f32) (main_arg5 : FVec F S2x128x128 .f32) (main_arg6 : FVec F S128 .f32) (main_arg7 : FVec F S2x128x128 .f32) (main_arg8 : FVec F S128 .f32) (main_arg9 : FVec F S2x128x128 .f32) (main_arg10 : FVec F S128 .f32) (main_arg11 : FVec F S2x128x128 .f32) (main_arg12 : FVec F S128 .f32) (main_arg13 : FVec F S2x128x128 .f32) (main_arg14 : FVec F S128 .f32) : IVec S_ 1 :=
  let main_v0 : FVec F S50000x128 .f32 := Host.absf main_arg1
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg2
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S2x128x128 .f32 := Host.absf main_arg3
  let main_cst_2 : FVec F S_ .f32 := constant S_ .f32 0x7F800000#32
  let main_v10 : FVec F S2x128x128 .f32 := broadcastInDim S2x128x128 ![] bcast_S_S2x128x128 main_cst_2
  let main_v11 : IVec S2x128x128 1 := cmpf .olt main_v9 main_v10
  let main_c_3 : IVec S_ 1 := constantI S_ 1 1#1
  let main_v12 : IVec S_ 1 := (fun x v => Host.reduce IntOp.andi x v reducesTo_S2x128x128_S_d0_1_2 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_v13 main_v16
-- ==== Kernel.lean ====
abbrev S2x1600000 : Shape := ⟨2, ![2, 1600000]⟩
abbrev S50000x128 : Shape := ⟨2, ![50000, 128]⟩
abbrev S2x128x128 : Shape := ⟨3, ![2, 128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S1600000x128 : Shape := ⟨2, ![1600000, 128]⟩
abbrev S50000x1 : Shape := ⟨2, ![50000, 1]⟩
abbrev S2000x128 : Shape := ⟨2, ![2000, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 89
  | .vmem => 22
  | .smem => 0
  | _ => 0

abbrev bufTy : (tb : Table) → Fin (tcTables nBuf tb) → BufTy
  | .hbm, ⟨0, _⟩ => ⟨S2x1600000, .i32⟩
  | .hbm, ⟨1, _⟩ => ⟨S50000x128, .f32⟩
  | .hbm, ⟨2, _⟩ => ⟨S50000x128, .f32⟩
  | .hbm, ⟨3, _⟩ => ⟨S2x128x128, .f32⟩
  | .hbm, ⟨4, _⟩ => ⟨S128, .f32⟩
  | .hbm, ⟨5, _⟩ => ⟨S2x128x128, .f32⟩
  | .hbm, ⟨6, _⟩ => ⟨S128, .f32⟩
  | .hbm, ⟨7, _⟩ => ⟨S2x128x128, .f32⟩
  | .hbm, ⟨8, _⟩ => ⟨S128, .f32⟩
  | .hbm, ⟨9, _⟩ => ⟨S2x128x128, .f32⟩
  | .hbm, ⟨10, _⟩ => ⟨S128, .f32⟩
  | .hbm, ⟨11, _⟩ => ⟨S2x128x128, .f32⟩
  | .hbm, ⟨12, _⟩ => ⟨S128, .f32⟩
  | .hbm, ⟨13, _⟩ => ⟨S2x128x128, .f32⟩
  | .hbm, ⟨14, _⟩ => ⟨S128, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .f32⟩
  | .hbm, ⟨20, _⟩ => ⟨S1600000, .f32⟩
  | .hbm, ⟨21, _⟩ => ⟨S_, .f32⟩
  | .hbm, ⟨22, _⟩ => ⟨S50000, .f32⟩
  | .hbm, ⟨23, _⟩ => ⟨S1600000x1, .i32⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000, .f32⟩
  | .hbm, ⟨48, _⟩ => ⟨S1600000x1, .f32⟩
  | .hbm, ⟨49, _⟩ => ⟨S1600000x128, .f32⟩
  | .hbm, ⟨50, _⟩ => ⟨S1600000x128, .f32⟩
  | .hbm, ⟨51, _⟩ => ⟨S_, .f32⟩
  | .hbm, ⟨52, _⟩ => ⟨S50000x128, .f32⟩
  | .hbm, ⟨53, _⟩ => ⟨S1600000x1, .i32⟩
  | .hbm, ⟨54, _⟩ => ⟨S50000x128, .f32⟩
  | .hbm, ⟨55, _⟩ => ⟨S50000x1, .f32⟩
  | .hbm, ⟨56, _⟩ => ⟨S50000x128, .f32⟩
  | .hbm, ⟨57, _⟩ => ⟨S50000x128, .f32⟩
  | .hbm, ⟨58, _⟩ => ⟨S50000x128, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x128, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000, .f32⟩
  | .hbm, ⟨77, _⟩ => ⟨S1600000x1, .f32⟩
  | .hbm, ⟨78, _⟩ => ⟨S1600000x128, .f32⟩
  | .hbm, ⟨79, _⟩ => ⟨S1600000x128, .f32⟩
  | .hbm, ⟨80, _⟩ => ⟨S_, .f32⟩
  | .hbm, ⟨81, _⟩ => ⟨S50000x128, .f32⟩
  | .hbm, ⟨82, _⟩ => ⟨S1600000x1, .i32⟩
  | .hbm, ⟨83, _⟩ => ⟨S50000x128, .f32⟩
  | .hbm, ⟨84, _⟩ => ⟨S50000x1, .f32⟩
  | .hbm, ⟨85, _⟩ => ⟨S50000x128, .f32⟩
  | .hbm, ⟨86, _⟩ => ⟨S50000x128, .f32⟩
  | .hbm, ⟨87, _⟩ => ⟨S50000x128, .f32⟩
  | .hbm, ⟨88, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2x128x128, .f32⟩
  | .local _ .vmem, ⟨9, _⟩ => ⟨S128, .f32⟩
  | .local _ .vmem, ⟨10, _⟩ => ⟨S2x128x128, .f32⟩
  | .local _ .vmem, ⟨11, _⟩ => ⟨S128, .f32⟩
  | .local _ .vmem, ⟨12, _⟩ => ⟨S2x128x128, .f32⟩
  | .local _ .vmem, ⟨13, _⟩ => ⟨S128, .f32⟩
  | .local _ .vmem, ⟨14, _⟩ => ⟨S2x128x128, .f32⟩
  | .local _ .vmem, ⟨15, _⟩ => ⟨S128, .f32⟩
  | .local _ .vmem, ⟨16, _⟩ => ⟨S2x128x128, .f32⟩
  | .local _ .vmem, ⟨17, _⟩ => ⟨S128, .f32⟩
  | .local _ .vmem, ⟨18, _⟩ => ⟨S2x128x128, .f32⟩
  | .local _ .vmem, ⟨19, _⟩ => ⟨S128, .f32⟩
  | .local _ .vmem, ⟨20, _⟩ => ⟨S2000x128, .f32⟩
  | .local _ .vmem, ⟨21, _⟩ => ⟨S2000x128, .f32⟩
  | _, _ => ⟨S2x1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_v8 : Ref sig .tc := ⟨.hbm, 28, rfl⟩
abbrev main_v9 : Ref sig .tc := ⟨.hbm, 29, rfl⟩
abbrev main_c : Ref sig .tc := ⟨.hbm, 30, rfl⟩
abbrev main_v10 : Ref sig .tc := ⟨.hbm, 31, rfl⟩
abbrev main_v11 : Ref sig .tc := ⟨.hbm, 32, rfl⟩
abbrev main_c_2 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c_3 : Ref sig .tc := ⟨.hbm, 39, rfl⟩
abbrev main_v17 : Ref sig .tc := ⟨.hbm, 40, rfl⟩
abbrev main_v18 : Ref sig .tc := ⟨.hbm, 41, rfl⟩
abbrev main_c_4 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_5 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c_6 : Ref sig .tc := ⟨.hbm, 59, rfl⟩
abbrev main_v34 : Ref sig .tc := ⟨.hbm, 60, rfl⟩
abbrev main_v35 : Ref sig .tc := ⟨.hbm, 61, rfl⟩
abbrev main_c_7 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_c_8 : Ref sig .tc := ⟨.hbm, 68, rfl⟩
abbrev main_v41 : Ref sig .tc := ⟨.hbm, 69, rfl⟩
abbrev main_v42 : Ref sig .tc := ⟨.hbm, 70, rfl⟩
abbrev main_c_9 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_10 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg16_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S2000x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2x128x128_S2x128x128_0_0_0 : ∀ a, (![0, 0, 0] : Fin 3 → Nat) a + S2x128x128.size a ≤ S2x128x128.size a
  h_S2x128x128 : 0 < S2x128x128.numel
  inb_S128_S128_0 : ∀ a, (![0] : Fin 1 → Nat) a + S128.size a ≤ S128.size a
  h_S128 : 0 < S128.numel
  slices_S2x128x128_o0_0_0_S1x128x128 : S2x128x128.Slices ![0, 0, 0] S1x128x128
  shapeCasts_S1x128x128_S128x128 : S1x128x128.ShapeCasts S128x128
  bitsLt_bf16_f32 : FTy.bits .bf16 < FTy.bits .f32
  slices_S2x128x128_o1_0_0_S1x128x128 : S2x128x128.Slices ![1, 0, 0] S1x128x128
  shapeCasts_S128_S1x128 : S128.ShapeCasts S1x128
  broadcasts_S1x128_S2000x128 : S1x128.Broadcasts S2000x128
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  gather_S50000_S1600000x1_S1600000_n_0_n_n_0_1_1_wf : GatherDims.WF S50000 S1600000x1 S1600000 [] [0] [] [0] [] 1 ![1]
  scatter_S50000x128_S1600000x1_S1600000x128_1_0_0_1_wf : ScatterDims.WF S50000x128 S1600000x1 S1600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x128x128.size a ≤ S2x128x128.size a
  hwx0_4 : ∀ i : grid0.Coords, EltTy.bits .f32 = 32 ∨ (Rect.block (s := S2x128x128) S2x128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x128x128.size a ≤ S2x128x128.size a
  hwx0_6 : ∀ i : grid0.Coords, EltTy.bits .f32 = 32 ∨ (Rect.block (s := S2x128x128) S2x128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2x128x128.size a ≤ S2x128x128.size a
  hwx0_8 : ∀ i : grid0.Coords, EltTy.bits .f32 = 32 ∨ (Rect.block (s := S2x128x128) S2x128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S2x128x128.size a ≤ S2x128x128.size a
  hwx0_10 : ∀ i : grid0.Coords, EltTy.bits .f32 = 32 ∨ (Rect.block (s := S2x128x128) S2x128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S2x128x128.size a ≤ S2x128x128.size a
  hwx0_12 : ∀ i : grid0.Coords, EltTy.bits .f32 = 32 ∨ (Rect.block (s := S2x128x128) S2x128x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128.size a ≤ S128.size a
  hwx0_13 : ∀ i : grid0.Coords, EltTy.bits .f32 = 32 ∨ (Rect.block (s := S128) S128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S2x128x128.size a ≤ S2x128x128.size a
  hwx0_14 : ∀ i : grid0.Coords, EltTy.bits .f32 = 32 ∨ (Rect.block (s := S2x128x128) S2x128x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128.size a ≤ S128.size a
  hwx0_15 : ∀ i : grid0.Coords, EltTy.bits .f32 = 32 ∨ (Rect.block (s := S128) S128.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S2000x128.size a ≤ S50000x128.size a
  hwx0_16 : ∀ i : grid0.Coords, EltTy.bits .f32 = 32 ∨ (Rect.block (s := S50000x128) S2000x128.size (cc0_transform_16 i) (hinb0_16 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg1) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v57) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S2x128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S2x128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S2x128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S2x128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg11) S2x128x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg12) S128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg13) S2x128x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg14) S128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v58) S2000x128.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S2x1600000 : Shape := ⟨2, ![2, 1600000]⟩
abbrev S50000x128 : Shape := ⟨2, ![50000, 128]⟩
abbrev S2x128x128 : Shape := ⟨3, ![2, 128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S1600000x128 : Shape := ⟨2, ![1600000, 128]⟩
abbrev S50000x1 : Shape := ⟨2, ![50000, 1]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 182
  | .vmem => 0
  | .smem => 0
  | _ => 0

abbrev hbmTy0_0 (i : Nat) : BufTy := match i % 128 with
  | 0 => ⟨S2x1600000, .i32⟩
  | 1 => ⟨S50000x128, .f32⟩
  | 2 => ⟨S50000x128, .f32⟩
  | 3 => ⟨S2x128x128, .f32⟩
  | 4 => ⟨S128, .f32⟩
  | 5 => ⟨S2x128x128, .f32⟩
  | 6 => ⟨S128, .f32⟩
  | 7 => ⟨S2x128x128, .f32⟩
  | 8 => ⟨S128, .f32⟩
  | 9 => ⟨S2x128x128, .f32⟩
  | 10 => ⟨S128, .f32⟩
  | 11 => ⟨S2x128x128, .f32⟩
  | 12 => ⟨S128, .f32⟩
  | 13 => ⟨S2x128x128, .f32⟩
  | 14 => ⟨S128, .f32⟩
  | 15 => ⟨S1x1600000, .i32⟩
  | 16 => ⟨S1600000, .i32⟩
  | 17 => ⟨S1x1600000, .i32⟩
  | 18 => ⟨S1600000, .i32⟩
  | 19 => ⟨S_, .f32⟩
  | 20 => ⟨S1600000, .f32⟩
  | 21 => ⟨S_, .f32⟩
  | 22 => ⟨S50000, .f32⟩
  | 23 => ⟨S1600000x1, .i32⟩
  | 24 => ⟨S50000, .f32⟩
  | 25 => ⟨S_, .f32⟩
  | 26 => ⟨S_, .f32⟩
  | 27 => ⟨S50000, .f32⟩
  | 28 => ⟨S50000, .f32⟩
  | 29 => ⟨S50000, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000x128, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S1600000x1, .f32⟩
  | 49 => ⟨S1600000x128, .f32⟩
  | 50 => ⟨S1600000x128, .f32⟩
  | 51 => ⟨S_, .f32⟩
  | 52 => ⟨S50000x128, .f32⟩
  | 53 => ⟨S1600000x1, .i32⟩
  | 54 => ⟨S50000x128, .f32⟩
  | 55 => ⟨S50000x1, .f32⟩
  | 56 => ⟨S50000x128, .f32⟩
  | 57 => ⟨S50000x128, .f32⟩
  | 58 => ⟨S50000x128, .f32⟩
  | 59 => ⟨S_, .i32⟩
  | 60 => ⟨S1600000, .i32⟩
  | 61 => ⟨S1600000, .i1⟩
  | 62 => ⟨S_, .i32⟩
  | 63 => ⟨S1600000, .i32⟩
  | 64 => ⟨S1600000, .i32⟩
  | 65 => ⟨S1600000, .i32⟩
  | 66 => ⟨S1600000x1, .i32⟩
  | 67 => ⟨S1600000x128, .f32⟩
  | 68 => ⟨S_, .i32⟩
  | 69 => ⟨S1600000, .i32⟩
  | 70 => ⟨S1600000, .i1⟩
  | 71 => ⟨S_, .i32⟩
  | 72 => ⟨S1600000, .i32⟩
  | 73 => ⟨S1600000, .i32⟩
  | 74 => ⟨S1600000, .i32⟩
  | 75 => ⟨S1600000x1, .i32⟩
  | 76 => ⟨S1600000, .f32⟩
  | 77 => ⟨S1600000x1, .f32⟩
  | 78 => ⟨S1600000x128, .f32⟩
  | 79 => ⟨S1600000x128, .f32⟩
  | 80 => ⟨S_, .f32⟩
  | 81 => ⟨S50000x128, .f32⟩
  | 82 => ⟨S1600000x1, .i32⟩
  | 83 => ⟨S50000x128, .f32⟩
  | 84 => ⟨S50000x1, .f32⟩
  | 85 => ⟨S50000x128, .f32⟩
  | 86 => ⟨S50000x128, .f32⟩
  | 87 => ⟨S50000x128, .f32⟩
  | 88 => ⟨S1x128x128, .f32⟩
  | 89 => ⟨S128x128, .f32⟩
  | 90 => ⟨S50000x128, .f32⟩
  | 91 => ⟨S1x128x128, .f32⟩
  | 92 => ⟨S128x128, .f32⟩
  | 93 => ⟨S50000x128, .f32⟩
  | 94 => ⟨S50000x128, .f32⟩
  | 95 => ⟨S1x128, .f32⟩
  | 96 => ⟨S50000x128, .f32⟩
  | 97 => ⟨S50000x128, .f32⟩
  | 98 => ⟨S1x128x128, .f32⟩
  | 99 => ⟨S128x128, .f32⟩
  | 100 => ⟨S50000x128, .f32⟩
  | 101 => ⟨S1x128x128, .f32⟩
  | 102 => ⟨S128x128, .f32⟩
  | 103 => ⟨S50000x128, .f32⟩
  | 104 => ⟨S50000x128, .f32⟩
  | 105 => ⟨S1x128, .f32⟩
  | 106 => ⟨S50000x128, .f32⟩
  | 107 => ⟨S50000x128, .f32⟩
  | 108 => ⟨S50000x128, .f32⟩
  | 109 => ⟨S50000x128, .f32⟩
  | 110 => ⟨S50000x128, .f32⟩
  | 111 => ⟨S_, .f32⟩
  | 112 => ⟨S50000x128, .f32⟩
  | 113 => ⟨S50000x128, .f32⟩
  | 114 => ⟨S_, .f32⟩
  | 115 => ⟨S50000x128, .f32⟩
  | 116 => ⟨S50000x128, .f32⟩
  | 117 => ⟨S1x128x128, .f32⟩
  | 118 => ⟨S128x128, .f32⟩
  | 119 => ⟨S50000x128, .f32⟩
  | 120 => ⟨S1x128x128, .f32⟩
  | 121 => ⟨S128x128, .f32⟩
  | 122 => ⟨S50000x128, .f32⟩
  | 123 => ⟨S50000x128, .f32⟩
  | 124 => ⟨S1x128, .f32⟩
  | 125 => ⟨S50000x128, .f32⟩
  | 126 => ⟨S50000x128, .f32⟩
  | 127 => ⟨S1x128x128, .f32⟩
  | _ => ⟨S2x1600000, .i32⟩

abbrev hbmTy0_1 (i : Nat) : BufTy := match i % 128 with
  | 0 => ⟨S128x128, .f32⟩
  | 1 => ⟨S50000x128, .f32⟩
  | 2 => ⟨S1x128x128, .f32⟩
  | 3 => ⟨S128x128, .f32⟩
  | 4 => ⟨S50000x128, .f32⟩
  | 5 => ⟨S50000x128, .f32⟩
  | 6 => ⟨S1x128, .f32⟩
  | 7 => ⟨S50000x128, .f32⟩
  | 8 => ⟨S50000x128, .f32⟩
  | 9 => ⟨S50000x128, .f32⟩
  | 10 => ⟨S50000x128, .f32⟩
  | 11 => ⟨S50000x128, .f32⟩
  | 12 => ⟨S_, .f32⟩
  | 13 => ⟨S50000x128, .f32⟩
  | 14 => ⟨S50000x128, .f32⟩
  | 15 => ⟨S_, .f32⟩
  | 16 => ⟨S50000x128, .f32⟩
  | 17 => ⟨S50000x128, .f32⟩
  | 18 => ⟨S1x128x128, .f32⟩
  | 19 => ⟨S128x128, .f32⟩
  | 20 => ⟨S50000x128, .f32⟩
  | 21 => ⟨S1x128x128, .f32⟩
  | 22 => ⟨S128x128, .f32⟩
  | 23 => ⟨S50000x128, .f32⟩
  | 24 => ⟨S50000x128, .f32⟩
  | 25 => ⟨S1x128, .f32⟩
  | 26 => ⟨S50000x128, .f32⟩
  | 27 => ⟨S50000x128, .f32⟩
  | 28 => ⟨S1x128x128, .f32⟩
  | 29 => ⟨S128x128, .f32⟩
  | 30 => ⟨S50000x128, .f32⟩
  | 31 => ⟨S1x128x128, .f32⟩
  | 32 => ⟨S128x128, .f32⟩
  | 33 => ⟨S50000x128, .f32⟩
  | 34 => ⟨S50000x128, .f32⟩
  | 35 => ⟨S1x128, .f32⟩
  | 36 => ⟨S50000x128, .f32⟩
  | 37 => ⟨S50000x128, .f32⟩
  | 38 => ⟨S50000x128, .f32⟩
  | 39 => ⟨S50000x128, .f32⟩
  | 40 => ⟨S50000x128, .f32⟩
  | 41 => ⟨S50000x128, .f32⟩
  | 42 => ⟨S_, .f32⟩
  | 43 => ⟨S50000x128, .f32⟩
  | 44 => ⟨S50000x128, .f32⟩
  | 45 => ⟨S_, .f32⟩
  | 46 => ⟨S50000x128, .f32⟩
  | 47 => ⟨S50000x128, .f32⟩
  | 48 => ⟨S50000x128, .f32⟩
  | 49 => ⟨S_, .f32⟩
  | 50 => ⟨S50000x128, .f32⟩
  | 51 => ⟨S50000x128, .f32⟩
  | 52 => ⟨S50000x128, .f32⟩
  | 53 => ⟨S50000x128, .f32⟩
  | _ => ⟨S2x1600000, .i32⟩

abbrev hbmTy (i : Nat) : BufTy := match i / 128 with
  | 0 => hbmTy0_0 i
  | 1 => hbmTy0_1 i
  | _ => ⟨S2x1600000, .i32⟩

abbrev bufTy : (tb : Table) → Fin (tcTables nBuf tb) → BufTy
  | .hbm, ⟨i, _⟩ => hbmTy i
  | _, _ => ⟨S2x1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_v8 : Ref sig .tc := ⟨.hbm, 28, rfl⟩
abbrev main_v9 : Ref sig .tc := ⟨.hbm, 29, rfl⟩
abbrev main_c : Ref sig .tc := ⟨.hbm, 30, rfl⟩
abbrev main_v10 : Ref sig .tc := ⟨.hbm, 31, rfl⟩
abbrev main_v11 : Ref sig .tc := ⟨.hbm, 32, rfl⟩
abbrev main_c_2 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c_3 : Ref sig .tc := ⟨.hbm, 39, rfl⟩
abbrev main_v17 : Ref sig .tc := ⟨.hbm, 40, rfl⟩
abbrev main_v18 : Ref sig .tc := ⟨.hbm, 41, rfl⟩
abbrev main_c_4 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_5 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c_6 : Ref sig .tc := ⟨.hbm, 59, rfl⟩
abbrev main_v34 : Ref sig .tc := ⟨.hbm, 60, rfl⟩
abbrev main_v35 : Ref sig .tc := ⟨.hbm, 61, rfl⟩
abbrev main_c_7 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_c_8 : Ref sig .tc := ⟨.hbm, 68, rfl⟩
abbrev main_v41 : Ref sig .tc := ⟨.hbm, 69, rfl⟩
abbrev main_v42 : Ref sig .tc := ⟨.hbm, 70, rfl⟩
abbrev main_c_9 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_10 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_11 : Ref sig .tc := ⟨.hbm, 111, rfl⟩
abbrev main_v81 : Ref sig .tc := ⟨.hbm, 112, rfl⟩
abbrev main_v82 : Ref sig .tc := ⟨.hbm, 113, rfl⟩
abbrev main_cst_12 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_cst_13 : Ref sig .tc := ⟨.hbm, 140, rfl⟩
abbrev main_v108 : Ref sig .tc := ⟨.hbm, 141, rfl⟩
abbrev main_v109 : Ref sig .tc := ⟨.hbm, 142, rfl⟩
abbrev main_cst_14 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_cst_15 : Ref sig .tc := ⟨.hbm, 170, rfl⟩
abbrev main_v136 : Ref sig .tc := ⟨.hbm, 171, rfl⟩
abbrev main_v137 : Ref sig .tc := ⟨.hbm, 172, rfl⟩
abbrev main_cst_16 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_cst_17 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S2x128x128_S1x128x128_0_0_0 : S2x128x128.Slices ![0, 0, 0] S1x128x128
  shapeCasts_S1x128x128_S128x128 : S1x128x128.ShapeCasts S128x128
  slices_S2x128x128_S1x128x128_1_0_0 : S2x128x128.Slices ![1, 0, 0] S1x128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  gather_S50000_S1600000x1_S1600000_n_0_n_n_0_1_1_wf : GatherDims.WF S50000 S1600000x1 S1600000 [] [0] [] [0] [] 1 ![1]
  scatter_S50000x128_S1600000x1_S1600000x128_1_0_0_1_wf : ScatterDims.WF S50000x128 S1600000x1 S1600000x128 [1] [0] [0] 1
  dot_S50000x128_S128x128_S50000x128_1_0_0_1_n_n_wf : DotDims.WF S50000x128 S128x128 S50000x128 [1] [0] [0] [1] [] []

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.GruRow.lean ====
/-
  One row of a GRU cell whose three gates are first-order Chebyshev graph convolutions, on the extended reals.

  For a node's feature row `a` and the same node's row `p` of the propagated features (both of length 128), a pair
  `W 0`, `W 1` of 128 × 128 weight matrices and a bias `b`, the convolution at output column `h` is

      cheb a p W b h = (Σ_k a k · W 0 k h + Σ_k p k · W 1 k h) + b h.

  With the rows `x`, `hx` of the input and of the hidden state, and their propagated rows `px`, `ph`:

      r  = σ (cheb x px W_rx b_rx + cheb hx ph W_rh b_rh)          the reset gate
      u  = σ (cheb x px W_ux b_ux + cheb hx ph W_uh b_uh)          the update gate
      c  = σ (cheb x px W_cx b_cx + cheb hx ph W_ch b_ch · r)      the candidate
      hy = u · hx h + (1 − u) · c

  where σ z = 1 / (1 + e^(−z)), with the limits 0 at −∞ and 1 at +∞. An entry of the new hidden state depends on
  ONE row of each of the four node arrays: that is why a tiling of the nodes into blocks of rows computes the same
  array as one pass over all the nodes. No law beyond the definitions is used, so nothing here asks the entries
  to be finite.
-/
import Idealize.ShloMosaic.PureOps.Ideal
import Idealize.ShloMosaic.PureOps.Ideal.Laws

noncomputable section

namespace Cert.GruRow

open Idealize.ShloMosaic

/-- The first-order Chebyshev convolution of a feature row `a` and its propagated row `p`, at output column `h`. -/
def cheb (a p : Fin 128 → EReal) (W : Fin 2 → Fin 128 → Fin 128 → EReal) (b : Fin 128 → EReal) (h : Fin 128) : EReal :=
  (∑ k : Fin 128, a k * W 0 k h + ∑ k : Fin 128, p k * W 1 k h) + b h

/-- The new hidden state of one node at column `h`, from the node's four rows and the six convolutions' weights. -/
def gru (x hx px ph : Fin 128 → EReal)
    (Wrx : Fin 2 → Fin 128 → Fin 128 → EReal) (brx : Fin 128 → EReal)
    (Wrh : Fin 2 → Fin 128 → Fin 128 → EReal) (brh : Fin 128 → EReal)
    (Wux : Fin 2 → Fin 128 → Fin 128 → EReal) (bux : Fin 128 → EReal)
    (Wuh : Fin 2 → Fin 128 → Fin 128 → EReal) (buh : Fin 128 → EReal)
    (Wcx : Fin 2 → Fin 128 → Fin 128 → EReal) (bcx : Fin 128 → EReal)
    (Wch : Fin 2 → Fin 128 → Fin 128 → EReal) (bch : Fin 128 → EReal) (h : Fin 128) : EReal :=
  Ideal.logistic (cheb x px Wux bux h + cheb hx ph Wuh buh h) * hx h
    + (1 - Ideal.logistic (cheb x px Wux bux h + cheb hx ph Wuh buh h))
      * Ideal.logistic (cheb x px Wcx bcx h
          + cheb hx ph Wch bch h * Ideal.logistic (cheb x px Wrx brx h + cheb hx ph Wrh brh h))

/-- The single-precision pattern `0x3F800000` denotes the number one. -/
theorem one_f32 : Ideal.ofBits .f32 0x3F800000#32 = 1 := by
  simp [Ideal.ofBits, Ideal.ieee, -EReal.coe_mul]
  norm_num

/-- The logistic function spelt out with negation, exponential, sum and quotient, the one written as its
    single-precision pattern: the same function on every extended real. -/
theorem logistic_spelt (z : EReal) :
    Ideal.div (Ideal.ofBits .f32 0x3F800000#32) (Ideal.ofBits .f32 0x3F800000#32 + Ideal.exp (-z)) = Ideal.logistic z := by
  rw [one_f32]; rfl

end Cert.GruRow

end
-- ==== Proof.KernelBlock.lean ====
/-
  What the kernel's body computes on one block of 2000 nodes, entry by entry, at the ideal values.

  The body loads the block's rows of the four node arrays (the input `x`, the hidden state `hx` and their propagated
  versions `px`, `ph`) and the six weight pairs with their biases, and stores one value. That value is built from six
  copies of one piece — two matrix products into a zero accumulator, their sum, and a bias row broadcast over the
  block's rows — joined by sums, products, a difference from one and three logistic functions. A change of float
  format is the identity at the ideal values, so the two products of a piece are the plain sums over the 128
  features, and the piece at (p, h) is `GruRow.cheb` of row `p` of its two node blocks. The stored value at (p, h)
  is therefore `GruRow.gru` of row `p` of the four blocks: it reads no other row.
-/
import proofs.«130233_j12317966205535_1_alg».proof.Proof.Gen.KernelIdeal.Skeleton
import proofs.«130233_j12317966205535_1_alg».proof.Proof.GruRow
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx

/-! ## Rows, weight pairs and biases as plain functions -/

/-- Row `p` of a block of 2000 rows. -/
def row (X : S2000x128.Idx → EReal) (p : Fin 2000) : Fin 128 → EReal := fun k => X (ix2 p k)

/-- A stacked pair of 128 × 128 matrices as a function of (layer, row, column). -/
def pair (W : S2x128x128.Idx → EReal) : Fin 2 → Fin 128 → Fin 128 → EReal := fun l k h => W (ix3 l k h)

/-- A bias vector as a function of the column. -/
def vec (b : S128.Idx → EReal) : Fin 128 → EReal := fun h => b (ix1 h)

/-! ## One matrix product of the body, at an entry -/

theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl

theorem lhs_col (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q

theorem rhs_row (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q

theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A [2000, 128] × [128, 128] product into the zero accumulator, at (p, h): the sum over the 128 features. -/
theorem product_entry (L : FVec Ideal S2000x128 .bf16) (R : FVec Ideal S128x128 .bf16) (p : Fin 2000) (h : Fin 128) :
    matmul dot_S2000x128_S128x128_S2000x128_1_0_0_1_n_n none L R (constant S2000x128 .f32 0x00000000#32) (ix2 p h)
      = ∑ k : Fin 128, L (ix2 p k) * R (ix2 k h) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p h) ((ValueIdx.contrEquiv1 dot_S2000x128_S128x128_S2000x128_1_0_0_1_n_n 128 rfl rfl).symm k) = ix2 p k := funext fun a => Fin.ext (by
    match a with
    | ⟨0, _⟩ => exact lhs_row _ _
    | ⟨1, _⟩ => exact (lhs_col _ _).trans hk)
  have er : dot_S2000x128_S128x128_S2000x128_1_0_0_1_n_n.rhsIdx (ix2 p h) ((ValueIdx.contrEquiv1 dot_S2000x128_S128x128_S2000x128_1_0_0_1_n_n 128 rfl rfl).symm k) = ix2 k h := funext fun a => Fin.ext (by
    match a with
    | ⟨0, _⟩ => exact (rhs_row _ _).trans hk
    | ⟨1, _⟩ => exact rhs_col _ _)
  rw [el, er]

/-! ## The layers of a weight pair, and the bias row -/

/-- Layer 0 of a stacked pair, sliced out and cast to a matrix, at (k, h). -/
theorem layer0_entry (W : S2x128x128.Idx → EReal) (k h : Fin 128) :
    shapeCast S128x128 (extractStridedSlice S1x128x128 ![0, 0, 0] W slices_S2x128x128_o0_0_0_S1x128x128) shapeCasts_S1x128x128_S128x128 (ix2 k h)
      = W (ix3 (0 : Fin 2) k h) :=
  (shapeCast_1ab_ab_apply _ shapeCasts_S1x128x128_S128x128 k h).trans
    (extractStridedSlice_apply ![0, 0, 0] W slices_S2x128x128_o0_0_0_S1x128x128 (ix3 (0 : Fin 1) k h) (ix3 (0 : Fin 2) k h) (fun a => match a with
      | ⟨0, _⟩ => by show 0 = 0 + 0; rfl
      | ⟨1, _⟩ => by show k.val = 0 + k.val; omega
      | ⟨2, _⟩ => by show h.val = 0 + h.val; omega))

/-- Layer 1 of a stacked pair, sliced out and cast to a matrix, at (k, h). -/
theorem layer1_entry (W : S2x128x128.Idx → EReal) (k h : Fin 128) :
    shapeCast S128x128 (extractStridedSlice S1x128x128 ![1, 0, 0] W slices_S2x128x128_o1_0_0_S1x128x128) shapeCasts_S1x128x128_S128x128 (ix2 k h)
      = W (ix3 (1 : Fin 2) k h) :=
  (shapeCast_1ab_ab_apply _ shapeCasts_S1x128x128_S128x128 k h).trans
    (extractStridedSlice_apply ![1, 0, 0] W slices_S2x128x128_o1_0_0_S1x128x128 (ix3 (0 : Fin 1) k h) (ix3 (1 : Fin 2) k h) (fun a => match a with
      | ⟨0, _⟩ => by show 1 = 1 + 0; rfl
      | ⟨1, _⟩ => by show k.val = 0 + k.val; omega
      | ⟨2, _⟩ => by show h.val = 0 + h.val; omega))

/-- A bias vector cast to one row and broadcast over the block's rows, at (p, h). -/
theorem bias_entry (b : S128.Idx → EReal) (p : Fin 2000) (h : Fin 128) :
    broadcastTo S2000x128 (shapeCast S1x128 b shapeCasts_S128_S1x128) broadcasts_S1x128_S2000x128 (ix2 p h) = b (ix1 h) :=
  (broadcastTo_1b_ab_apply _ broadcasts_S1x128_S2000x128 p h).trans (shapeCast_a_1a_apply b shapeCasts_S128_S1x128 0 h)

/-! ## One convolution piece -/

/-- The piece the body repeats six times: `A · W[0] + P · W[1] + b`, the products taken on operands narrowed to
    half precision, the bias broadcast over the rows. -/
def conv (A P : FVec Ideal S2000x128 .f32) (W : FVec Ideal S2x128x128 .f32) (b : FVec Ideal S128 .f32) : FVec Ideal S2000x128 .f32 :=
  addf
    (addf
      (matmul dot_S2000x128_S128x128_S2000x128_1_0_0_1_n_n none (truncf .bf16 A bitsLt_bf16_f32)
        (truncf .bf16 (shapeCast S128x128 (extractStridedSlice S1x128x128 ![0, 0, 0] W slices_S2x128x128_o0_0_0_S1x128x128) shapeCasts_S1x128x128_S128x128) bitsLt_bf16_f32)
        (constant S2000x128 .f32 0x00000000#32))
      (matmul dot_S2000x128_S128x128_S2000x128_1_0_0_1_n_n none (truncf .bf16 P bitsLt_bf16_f32)
        (truncf .bf16 (shapeCast S128x128 (extractStridedSlice S1x128x128 ![1, 0, 0] W slices_S2x128x128_o1_0_0_S1x128x128) shapeCasts_S1x128x128_S128x128) bitsLt_bf16_f32)
        (constant S2000x128 .f32 0x00000000#32)))
    (broadcastTo S2000x128 (shapeCast S1x128 b shapeCasts_S128_S1x128) broadcasts_S1x128_S2000x128)

/-- The piece at (p, h) is the row convolution of row `p` of its two node blocks. -/
theorem conv_entry (A P : FVec Ideal S2000x128 .f32) (W : FVec Ideal S2x128x128 .f32) (b : FVec Ideal S128 .f32) (p : Fin 2000) (h : Fin 128) :
    conv A P W b (ix2 p h) = GruRow.cheb (row A p) (row P p) (pair W) (vec b) h := by
  unfold conv GruRow.cheb row pair vec
  rw [addf_apply, addf_apply, product_entry, product_entry, bias_entry]
  simp only [truncf_apply, layer0_entry, layer1_entry]

/-! ## The stored value -/

/-- The value the body stores, written over the convolution piece. -/
def gate (x hx px ph : FVec Ideal S2000x128 .f32)
    (Wrx : FVec Ideal S2x128x128 .f32) (brx : FVec Ideal S128 .f32) (Wrh : FVec Ideal S2x128x128 .f32) (brh : FVec Ideal S128 .f32)
    (Wux : FVec Ideal S2x128x128 .f32) (bux : FVec Ideal S128 .f32) (Wuh : FVec Ideal S2x128x128 .f32) (buh : FVec Ideal S128 .f32)
    (Wcx : FVec Ideal S2x128x128 .f32) (bcx : FVec Ideal S128 .f32) (Wch : FVec Ideal S2x128x128 .f32) (bch : FVec Ideal S128 .f32) :
    FVec Ideal S2000x128 .f32 :=
  addf
    (mulf (logistic (addf (conv x px Wux bux) (conv hx ph Wuh buh))) hx)
    (mulf
      (subf (broadcast S2000x128 (Scalar.ofBits .f32 0x3F800000#32)) (logistic (addf (conv x px Wux bux) (conv hx ph Wuh buh))))
      (logistic (addf (conv x px Wcx bcx)
        (mulf (conv hx ph Wch bch) (logistic (addf (conv x px Wrx brx) (conv hx ph Wrh brh)))))))

/-- The body's payload, over the loaded blocks, is `gate` (the two identity casts of `px` and `ph` removed). -/
theorem payload_eq (x hx px ph : Vec Ideal S2000x128 .f32)
    (Wrx : Vec Ideal S2x128x128 .f32) (brx : Vec Ideal S128 .f32) (Wrh : Vec Ideal S2x128x128 .f32) (brh : Vec Ideal S128 .f32)
    (Wux : Vec Ideal S2x128x128 .f32) (bux : Vec Ideal S128 .f32) (Wuh : Vec Ideal S2x128x128 .f32) (buh : Vec Ideal S128 .f32)
    (Wcx : Vec Ideal S2x128x128 .f32) (bcx : Vec Ideal S128 .f32) (Wch : Vec Ideal S2x128x128 .f32) (bch : Vec Ideal S128 .f32) :
    k0_pay1 (F := Ideal) hx (k0_pay2 px) (k0_pay3 ph) (k0_pay5 (k0_pay4 x hx px ph Wrx brx Wrh brh))
        (k0_pay6 x hx (k0_pay2 px) (k0_pay3 ph) Wux bux Wuh buh) bcx (k0_pay7 Wcx) (k0_pay8 Wcx) (k0_pay9 x) Wch bch
      = gate x hx px ph Wrx brx Wrh brh Wux bux Wuh buh Wcx bcx Wch bch := by
  have e2 : k0_pay2 (F := Ideal) px = px := shapeCast_self px shapeCasts_S2000x128_S2000x128
  have e3 : k0_pay3 (F := Ideal) ph = ph := shapeCast_self ph shapeCasts_S2000x128_S2000x128
  rw [e2, e3]
  have e4 : k0_pay4 (F := Ideal) x hx px ph Wrx brx Wrh brh = addf (conv x px Wrx brx) (conv hx ph Wrh brh) := by
    unfold k0_pay4; rw [e2, e3]; rfl
  rw [e4]
  rfl

/-- The stored value at (p, h) is the row function of row `p` of the four blocks. -/
theorem gate_entry (x hx px ph : FVec Ideal S2000x128 .f32)
    (Wrx : FVec Ideal S2x128x128 .f32) (brx : FVec Ideal S128 .f32) (Wrh : FVec Ideal S2x128x128 .f32) (brh : FVec Ideal S128 .f32)
    (Wux : FVec Ideal S2x128x128 .f32) (bux : FVec Ideal S128 .f32) (Wuh : FVec Ideal S2x128x128 .f32) (buh : FVec Ideal S128 .f32)
    (Wcx : FVec Ideal S2x128x128 .f32) (bcx : FVec Ideal S128 .f32) (Wch : FVec Ideal S2x128x128 .f32) (bch : FVec Ideal S128 .f32)
    (p : Fin 2000) (h : Fin 128) :
    gate x hx px ph Wrx brx Wrh brh Wux bux Wuh buh Wcx bcx Wch bch (ix2 p h)
      = GruRow.gru (row x p) (row hx p) (row px p) (row ph p) (pair Wrx) (vec brx) (pair Wrh) (vec brh)
          (pair Wux) (vec bux) (pair Wuh) (vec buh) (pair Wcx) (vec bcx) (pair Wch) (vec bch) h := by
  have one : (Scalar.ofBits (F := Ideal) .f32 0x3F800000#32 : EReal) = 1 := GruRow.one_f32
  show (logistic (addf (conv x px Wux bux) (conv hx ph Wuh buh)) (ix2 p h)) * hx (ix2 p h)
      + ((Scalar.ofBits (F := Ideal) .f32 0x3F800000#32 : EReal) - logistic (addf (conv x px Wux bux) (conv hx ph Wuh buh)) (ix2 p h))
        * logistic (addf (conv x px Wcx bcx) (mulf (conv hx ph Wch bch) (logistic (addf (conv x px Wrx brx) (conv hx ph Wrh brh))))) (ix2 p h) = _
  show Ideal.logistic (conv x px Wux bux (ix2 p h) + conv hx ph Wuh buh (ix2 p h)) * hx (ix2 p h)
      + ((Scalar.ofBits (F := Ideal) .f32 0x3F800000#32 : EReal) - Ideal.logistic (conv x px Wux bux (ix2 p h) + conv hx ph Wuh buh (ix2 p h)))
        * Ideal.logistic (conv x px Wcx bcx (ix2 p h)
            + conv hx ph Wch bch (ix2 p h) * Ideal.logistic (conv x px Wrx brx (ix2 p h) + conv hx ph Wrh brh (ix2 p h))) = _
  rw [one, conv_entry, conv_entry, conv_entry, conv_entry, conv_entry, conv_entry]
  rfl

end Cert.KernelIdeal.Block

end
-- ==== Proof.KernelValue.lean ====
/-
  From blocks to the array: what the kernel's result array holds after the run.

  The grid has 25 points. At point `t` the four node windows and the output window all hold rows
  `2000·t … 2000·t + 1999` of their arrays (all 128 columns), and each weight or bias window holds its whole
  array. The body's stored value at (p, h) is the row function `GruRow.gru` of row `p` of the four node blocks
  (KernelBlock), that is of row `2000·t + p` of the four node arrays; so what point `t` writes back is block `t` of
  ONE function `hidden` of the arrays, the same for every point. The 25 output blocks tile the 50000 rows, so the
  array ends holding `hidden` everywhere. All of this is said of ARBITRARY arrays first (`point_block`): two of the
  four node arrays are the propagated features, which the host operations before the kernel wrote, and they enter
  only at the end, as the contents the kernel finds, never opened.
-/
import proofs.«130233_j12317966205535_1_alg».proof.Proof.Gen.KernelIdeal.Value
import proofs.«130233_j12317966205535_1_alg».proof.Proof.KernelBlock
import Idealize.ShloMosaic.Lib.Pipeline.Value
import Idealize.ShloMosaic.Lib.ValueIdx

noncomputable section

namespace Cert.KernelIdeal.Whole

open Cert.KernelIdeal Cert.KernelIdeal.Gen Idealize.ShloMosaic Idealize.ShloMosaic.TcCoe Idealize.SL.Sem Idealize.ShloMosaic.ValueIdx
open Idealize.ShloMosaic.Pipeline (Dat)

/-- Row `n` of an array over all 50000 nodes. -/
def row (X : S50000x128.Idx → EReal) (n : Fin 50000) : Fin 128 → EReal := fun k => X (ix2 n k)

/-- The new hidden state of every node: entry (n, h) is the row function of row `n` of the four node arrays. -/
def hidden (x hx px ph : S50000x128.Idx → EReal)
    (Wrx : S2x128x128.Idx → EReal) (brx : S128.Idx → EReal) (Wrh : S2x128x128.Idx → EReal) (brh : S128.Idx → EReal)
    (Wux : S2x128x128.Idx → EReal) (bux : S128.Idx → EReal) (Wuh : S2x128x128.Idx → EReal) (buh : S128.Idx → EReal)
    (Wcx : S2x128x128.Idx → EReal) (bcx : S128.Idx → EReal) (Wch : S2x128x128.Idx → EReal) (bch : S128.Idx → EReal) :
    S50000x128.Idx → EReal := fun i =>
  GruRow.gru (row x (i 0)) (row hx (i 0)) (row px (i 0)) (row ph (i 0))
    (Block.pair Wrx) (Block.vec brx) (Block.pair Wrh) (Block.vec brh)
    (Block.pair Wux) (Block.vec bux) (Block.pair Wuh) (Block.vec buh)
    (Block.pair Wcx) (Block.vec bcx) (Block.pair Wch) (Block.vec bch) (i 1)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## The index maps, decided once over the 25 points -/

/-- Each node window moves with the output window along the rows and stays at column block 0; the output's row
    block index is at most 24. -/
theorem node_facts : ∀ t : Fin cfg0.N,
    win0_0.index t (0 : Fin 2) = win0_16.index t (0 : Fin 2) ∧ win0_0.index t (1 : Fin 2) = 0
    ∧ win0_1.index t (0 : Fin 2) = win0_16.index t (0 : Fin 2) ∧ win0_1.index t (1 : Fin 2) = 0
    ∧ win0_2.index t (0 : Fin 2) = win0_16.index t (0 : Fin 2) ∧ win0_2.index t (1 : Fin 2) = 0
    ∧ win0_3.index t (0 : Fin 2) = win0_16.index t (0 : Fin 2) ∧ win0_3.index t (1 : Fin 2) = 0
    ∧ win0_16.index t (1 : Fin 2) = 0 ∧ win0_16.index t (0 : Fin 2) ≤ 24 :=
  (by decide +kernel : ∀ t : Fin grid0.N, _)

/-- Every weight window stays at block (0, 0, 0). -/
theorem pair_facts : ∀ t : Fin cfg0.N,
    win0_4.index t (0 : Fin 3) = 0 ∧ win0_4.index t (1 : Fin 3) = 0 ∧ win0_4.index t (2 : Fin 3) = 0
    ∧ win0_6.index t (0 : Fin 3) = 0 ∧ win0_6.index t (1 : Fin 3) = 0 ∧ win0_6.index t (2 : Fin 3) = 0
    ∧ win0_8.index t (0 : Fin 3) = 0 ∧ win0_8.index t (1 : Fin 3) = 0 ∧ win0_8.index t (2 : Fin 3) = 0
    ∧ win0_10.index t (0 : Fin 3) = 0 ∧ win0_10.index t (1 : Fin 3) = 0 ∧ win0_10.index t (2 : Fin 3) = 0
    ∧ win0_12.index t (0 : Fin 3) = 0 ∧ win0_12.index t (1 : Fin 3) = 0 ∧ win0_12.index t (2 : Fin 3) = 0
    ∧ win0_14.index t (0 : Fin 3) = 0 ∧ win0_14.index t (1 : Fin 3) = 0 ∧ win0_14.index t (2 : Fin 3) = 0 :=
  (by decide +kernel : ∀ t : Fin grid0.N, _)

/-- Every bias window stays at block 0. -/
theorem vec_facts : ∀ t : Fin cfg0.N, win0_5.index t (0 : Fin 1) = 0 ∧ win0_7.index t (0 : Fin 1) = 0 ∧ win0_9.index t (0 : Fin 1) = 0 ∧ win0_11.index t (0 : Fin 1) = 0 ∧ win0_13.index t (0 : Fin 1) = 0 ∧ win0_15.index t (0 : Fin 1) = 0 :=
  (by decide +kernel : ∀ t : Fin grid0.N, _)

/-- Every row block of the output is some point's. -/
theorem idx_onto : ∀ q : Fin 25, ∃ t : Fin cfg0.N, win0_16.index t (0 : Fin 2) = q.val :=
  (by decide +kernel : ∀ q : Fin 25, ∃ t : Fin grid0.N, win0_16.index t (0 : Fin 2) = q.val)

/-! ## Each input block read off an arbitrary array -/

/-- Row `p` of window 0's block at point `t` is row `r` of the array, `r` the block's first row plus `p`. -/
theorem row_0 (A : S50000x128.Idx → EReal) (t : Fin cfg0.N) (p : Fin 2000) (r : Fin 50000) (hr : r.val = win0_16.index t (0 : Fin 2) * 2000 + p.val) :
    Block.row (((cfg0.win 0).blk t).view.read (Elt Ideal) A) p = row A r := by
  obtain ⟨n0a, n0b, n1a, n1b, n2a, n2b, n3a, n3b, -⟩ := node_facts t
  funext k
  show A (((cfg0.win 0).blk t).view.emb (ix2 p k)) = A (ix2 r k)
  refine congrArg A (funext fun a => Fin.ext ?_)
  match a with
  | ⟨0, _⟩ => show win0_0.index t (0 : Fin 2) * 2000 + 1 * p.val = r.val; omega
  | ⟨1, _⟩ => show win0_0.index t (1 : Fin 2) * 128 + 1 * k.val = k.val; omega

/-- Row `p` of window 1's block at point `t` is row `r` of the array, `r` the block's first row plus `p`. -/
theorem row_1 (A : S50000x128.Idx → EReal) (t : Fin cfg0.N) (p : Fin 2000) (r : Fin 50000) (hr : r.val = win0_16.index t (0 : Fin 2) * 2000 + p.val) :
    Block.row (((cfg0.win 1).blk t).view.read (Elt Ideal) A) p = row A r := by
  obtain ⟨n0a, n0b, n1a, n1b, n2a, n2b, n3a, n3b, -⟩ := node_facts t
  funext k
  show A (((cfg0.win 1).blk t).view.emb (ix2 p k)) = A (ix2 r k)
  refine congrArg A (funext fun a => Fin.ext ?_)
  match a with
  | ⟨0, _⟩ => show win0_1.index t (0 : Fin 2) * 2000 + 1 * p.val = r.val; omega
  | ⟨1, _⟩ => show win0_1.index t (1 : Fin 2) * 128 + 1 * k.val = k.val; omega

/-- Row `p` of window 2's block at point `t` is row `r` of the array, `r` the block's first row plus `p`. -/
theorem row_2 (A : S50000x128.Idx → EReal) (t : Fin cfg0.N) (p : Fin 2000) (r : Fin 50000) (hr : r.val = win0_16.index t (0 : Fin 2) * 2000 + p.val) :
    Block.row (((cfg0.win 2).blk t).view.read (Elt Ideal) A) p = row A r := by
  obtain ⟨n0a, n0b, n1a, n1b, n2a, n2b, n3a, n3b, -⟩ := node_facts t
  funext k
  show A (((cfg0.win 2).blk t).view.emb (ix2 p k)) = A (ix2 r k)
  refine congrArg A (funext fun a => Fin.ext ?_)
  match a with
  | ⟨0, _⟩ => show win0_2.index t (0 : Fin 2) * 2000 + 1 * p.val = r.val; omega
  | ⟨1, _⟩ => show win0_2.index t (1 : Fin 2) * 128 + 1 * k.val = k.val; omega

/-- Row `p` of window 3's block at point `t` is row `r` of the array, `r` the block's first row plus `p`. -/
theorem row_3 (A : S50000x128.Idx → EReal) (t : Fin cfg0.N) (p : Fin 2000) (r : Fin 50000) (hr : r.val = win0_16.index t (0 : Fin 2) * 2000 + p.val) :
    Block.row (((cfg0.win 3).blk t).view.read (Elt Ideal) A) p = row A r := by
  obtain ⟨n0a, n0b, n1a, n1b, n2a, n2b, n3a, n3b, -⟩ := node_facts t
  funext k
  show A (((cfg0.win 3).blk t).view.emb (ix2 p k)) = A (ix2 r k)
  refine congrArg A (funext fun a => Fin.ext ?_)
  match a with
  | ⟨0, _⟩ => show win0_3.index t (0 : Fin 2) * 2000 + 1 * p.val = r.val; omega
  | ⟨1, _⟩ => show win0_3.index t (1 : Fin 2) * 128 + 1 * k.val = k.val; omega

/-- Window 4's one block is its whole array: a stacked weight pair. -/
theorem pair_4 (W : S2x128x128.Idx → EReal) (t : Fin cfg0.N) : Block.pair (((cfg0.win 4).blk t).view.read (Elt Ideal) W) = Block.pair W := by
  obtain ⟨w4a, w4b, w4c, w6a, w6b, w6c, w8a, w8b, w8c, w10a, w10b, w10c, w12a, w12b, w12c, w14a, w14b, w14c⟩ := pair_facts t
  funext l k h
  show W (((cfg0.win 4).blk t).view.emb (ix3 l k h)) = W (ix3 l k h)
  refine congrArg W (funext fun a => Fin.ext ?_)
  match a with
  | ⟨0, _⟩ => show win0_4.index t (0 : Fin 3) * 2 + 1 * l.val = l.val; omega
  | ⟨1, _⟩ => show win0_4.index t (1 : Fin 3) * 128 + 1 * k.val = k.val; omega
  | ⟨2, _⟩ => show win0_4.index t (2 : Fin 3) * 128 + 1 * h.val = h.val; omega

/-- Window 6's one block is its whole array: a stacked weight pair. -/
theorem pair_6 (W : S2x128x128.Idx → EReal) (t : Fin cfg0.N) : Block.pair (((cfg0.win 6).blk t).view.read (Elt Ideal) W) = Block.pair W := by
  obtain ⟨w4a, w4b, w4c, w6a, w6b, w6c, w8a, w8b, w8c, w10a, w10b, w10c, w12a, w12b, w12c, w14a, w14b, w14c⟩ := pair_facts t
  funext l k h
  show W (((cfg0.win 6).blk t).view.emb (ix3 l k h)) = W (ix3 l k h)
  refine congrArg W (funext fun a => Fin.ext ?_)
  match a with
  | ⟨0, _⟩ => show win0_6.index t (0 : Fin 3) * 2 + 1 * l.val = l.val; omega
  | ⟨1, _⟩ => show win0_6.index t (1 : Fin 3) * 128 + 1 * k.val = k.val; omega
  | ⟨2, _⟩ => show win0_6.index t (2 : Fin 3) * 128 + 1 * h.val = h.val; omega

/-- Window 8's one block is its whole array: a stacked weight pair. -/
theorem pair_8 (W : S2x128x128.Idx → EReal) (t : Fin cfg0.N) : Block.pair (((cfg0.win 8).blk t).view.read (Elt Ideal) W) = Block.pair W := by
  obtain ⟨w4a, w4b, w4c, w6a, w6b, w6c, w8a, w8b, w8c, w10a, w10b, w10c, w12a, w12b, w12c, w14a, w14b, w14c⟩ := pair_facts t
  funext l k h
  show W (((cfg0.win 8).blk t).view.emb (ix3 l k h)) = W (ix3 l k h)
  refine congrArg W (funext fun a => Fin.ext ?_)
  match a with
  | ⟨0, _⟩ => show win0_8.index t (0 : Fin 3) * 2 + 1 * l.val = l.val; omega
  | ⟨1, _⟩ => show win0_8.index t (1 : Fin 3) * 128 + 1 * k.val = k.val; omega
  | ⟨2, _⟩ => show win0_8.index t (2 : Fin 3) * 128 + 1 * h.val = h.val; omega

/-- Window 10's one block is its whole array: a stacked weight pair. -/
theorem pair_10 (W : S2x128x128.Idx → EReal) (t : Fin cfg0.N) : Block.pair (((cfg0.win 10).blk t).view.read (Elt Ideal) W) = Block.pair W := by
  obtain ⟨w4a, w4b, w4c, w6a, w6b, w6c, w8a, w8b, w8c, w10a, w10b, w10c, w12a, w12b, w12c, w14a, w14b, w14c⟩ := pair_facts t
  funext l k h
  show W (((cfg0.win 10).blk t).view.emb (ix3 l k h)) = W (ix3 l k h)
  refine congrArg W (funext fun a => Fin.ext ?_)
  match a with
  | ⟨0, _⟩ => show win0_10.index t (0 : Fin 3) * 2 + 1 * l.val = l.val; omega
  | ⟨1, _⟩ => show win0_10.index t (1 : Fin 3) * 128 + 1 * k.val = k.val; omega
  | ⟨2, _⟩ => show win0_10.index t (2 : Fin 3) * 128 + 1 * h.val = h.val; omega

/-- Window 12's one block is its whole array: a stacked weight pair. -/
theorem pair_12 (W : S2x128x128.Idx → EReal) (t : Fin cfg0.N) : Block.pair (((cfg0.win 12).blk t).view.read (Elt Ideal) W) = Block.pair W := by
  obtain ⟨w4a, w4b, w4c, w6a, w6b, w6c, w8a, w8b, w8c, w10a, w10b, w10c, w12a, w12b, w12c, w14a, w14b, w14c⟩ := pair_facts t
  funext l k h
  show W (((cfg0.win 12).blk t).view.emb (ix3 l k h)) = W (ix3 l k h)
  refine congrArg W (funext fun a => Fin.ext ?_)
  match a with
  | ⟨0, _⟩ => show win0_12.index t (0 : Fin 3) * 2 + 1 * l.val = l.val; omega
  | ⟨1, _⟩ => show win0_12.index t (1 : Fin 3) * 128 + 1 * k.val = k.val; omega
  | ⟨2, _⟩ => show win0_12.index t (2 : Fin 3) * 128 + 1 * h.val = h.val; omega

/-- Window 14's one block is its whole array: a stacked weight pair. -/
theorem pair_14 (W : S2x128x128.Idx → EReal) (t : Fin cfg0.N) : Block.pair (((cfg0.win 14).blk t).view.read (Elt Ideal) W) = Block.pair W := by
  obtain ⟨w4a, w4b, w4c, w6a, w6b, w6c, w8a, w8b, w8c, w10a, w10b, w10c, w12a, w12b, w12c, w14a, w14b, w14c⟩ := pair_facts t
  funext l k h
  show W (((cfg0.win 14).blk t).view.emb (ix3 l k h)) = W (ix3 l k h)
  refine congrArg W (funext fun a => Fin.ext ?_)
  match a with
  | ⟨0, _⟩ => show win0_14.index t (0 : Fin 3) * 2 + 1 * l.val = l.val; omega
  | ⟨1, _⟩ => show win0_14.index t (1 : Fin 3) * 128 + 1 * k.val = k.val; omega
  | ⟨2, _⟩ => show win0_14.index t (2 : Fin 3) * 128 + 1 * h.val = h.val; omega

/-- Window 5's one block is its whole array: a bias. -/
theorem vec_5 (b : S128.Idx → EReal) (t : Fin cfg0.N) : Block.vec (((cfg0.win 5).blk t).view.read (Elt Ideal) b) = Block.vec b := by
  obtain ⟨b5, b7, b9, b11, b13, b15⟩ := vec_facts t
  funext h
  show b (((cfg0.win 5).blk t).view.emb (ix1 h)) = b (ix1 h)
  refine congrArg b (funext fun a => Fin.ext ?_)
  match a with
  | ⟨0, _⟩ => show win0_5.index t (0 : Fin 1) * 128 + 1 * h.val = h.val; omega

/-- Window 7's one block is its whole array: a bias. -/
theorem vec_7 (b : S128.Idx → EReal) (t : Fin cfg0.N) : Block.vec (((cfg0.win 7).blk t).view.read (Elt Ideal) b) = Block.vec b := by
  obtain ⟨b5, b7, b9, b11, b13, b15⟩ := vec_facts t
  funext h
  show b (((cfg0.win 7).blk t).view.emb (ix1 h)) = b (ix1 h)
  refine congrArg b (funext fun a => Fin.ext ?_)
  match a with
  | ⟨0, _⟩ => show win0_7.index t (0 : Fin 1) * 128 + 1 * h.val = h.val; omega

/-- Window 9's one block is its whole array: a bias. -/
theorem vec_9 (b : S128.Idx → EReal) (t : Fin cfg0.N) : Block.vec (((cfg0.win 9).blk t).view.read (Elt Ideal) b) = Block.vec b := by
  obtain ⟨b5, b7, b9, b11, b13, b15⟩ := vec_facts t
  funext h
  show b (((cfg0.win 9).blk t).view.emb (ix1 h)) = b (ix1 h)
  refine congrArg b (funext fun a => Fin.ext ?_)
  match a with
  | ⟨0, _⟩ => show win0_9.index t (0 : Fin 1) * 128 + 1 * h.val = h.val; omega

/-- Window 11's one block is its whole array: a bias. -/
theorem vec_11 (b : S128.Idx → EReal) (t : Fin cfg0.N) : Block.vec (((cfg0.win 11).blk t).view.read (Elt Ideal) b) = Block.vec b := by
  obtain ⟨b5, b7, b9, b11, b13, b15⟩ := vec_facts t
  funext h
  show b (((cfg0.win 11).blk t).view.emb (ix1 h)) = b (ix1 h)
  refine congrArg b (funext fun a => Fin.ext ?_)
  match a with
  | ⟨0, _⟩ => show win0_11.index t (0 : Fin 1) * 128 + 1 * h.val = h.val; omega

/-- Window 13's one block is its whole array: a bias. -/
theorem vec_13 (b : S128.Idx → EReal) (t : Fin cfg0.N) : Block.vec (((cfg0.win 13).blk t).view.read (Elt Ideal) b) = Block.vec b := by
  obtain ⟨b5, b7, b9, b11, b13, b15⟩ := vec_facts t
  funext h
  show b (((cfg0.win 13).blk t).view.emb (ix1 h)) = b (ix1 h)
  refine congrArg b (funext fun a => Fin.ext ?_)
  match a with
  | ⟨0, _⟩ => show win0_13.index t (0 : Fin 1) * 128 + 1 * h.val = h.val; omega

/-- Window 15's one block is its whole array: a bias. -/
theorem vec_15 (b : S128.Idx → EReal) (t : Fin cfg0.N) : Block.vec (((cfg0.win 15).blk t).view.read (Elt Ideal) b) = Block.vec b := by
  obtain ⟨b5, b7, b9, b11, b13, b15⟩ := vec_facts t
  funext h
  show b (((cfg0.win 15).blk t).view.emb (ix1 h)) = b (ix1 h)
  refine congrArg b (funext fun a => Fin.ext ?_)
  match a with
  | ⟨0, _⟩ => show win0_15.index t (0 : Fin 1) * 128 + 1 * h.val = h.val; omega

/-! ## What a point writes back, of arbitrary arrays -/

set_option maxHeartbeats 1600000 in
/-- From the blocks at point `t` of sixteen arbitrary arrays, the body leaves in the output window block `t` of
    `hidden` of those arrays. -/
theorem point_block (A0 A1 A2 A3 : S50000x128.Idx → EReal) (W4 W6 W8 W10 W12 W14 : S2x128x128.Idx → EReal)
    (b5 b7 b9 b11 b13 b15 : S128.Idx → EReal) (t : Fin cfg0.N) :
    (cfg0.win 16).cut (grid0.coords t) (out0_16 (((cfg0.win 0).blk t).view.read (Elt Ideal) A0) (((cfg0.win 1).blk t).view.read (Elt Ideal) A1) (((cfg0.win 2).blk t).view.read (Elt Ideal) A2) (((cfg0.win 3).blk t).view.read (Elt Ideal) A3) (((cfg0.win 4).blk t).view.read (Elt Ideal) W4) (((cfg0.win 5).blk t).view.read (Elt Ideal) b5) (((cfg0.win 6).blk t).view.read (Elt Ideal) W6) (((cfg0.win 7).blk t).view.read (Elt Ideal) b7) (((cfg0.win 8).blk t).view.read (Elt Ideal) W8) (((cfg0.win 9).blk t).view.read (Elt Ideal) b9) (((cfg0.win 10).blk t).view.read (Elt Ideal) W10) (((cfg0.win 11).blk t).view.read (Elt Ideal) b11) (((cfg0.win 12).blk t).view.read (Elt Ideal) W12) (((cfg0.win 13).blk t).view.read (Elt Ideal) b13) (((cfg0.win 14).blk t).view.read (Elt Ideal) W14) (((cfg0.win 15).blk t).view.read (Elt Ideal) b15))
      = ((cfg0.win 16).blk t).view.read (Elt Ideal) (hidden A0 A1 A2 A3 W4 b5 W6 b7 W8 b9 W10 b11 W12 b13 W14 b15) := by
  unfold out0_16
  rw [View.canon_unit_zero hz2]
  simp only [View.ld_unit_zero (S := S2000x128) hz2, View.ld_unit_zero (S := S2x128x128) hz3, View.ld_unit_zero (S := S128) hz1]
  rw [Block.payload_eq (((cfg0.win 0).blk t).view.read (Elt Ideal) A0) (((cfg0.win 1).blk t).view.read (Elt Ideal) A1) (((cfg0.win 2).blk t).view.read (Elt Ideal) A2) (((cfg0.win 3).blk t).view.read (Elt Ideal) A3) (((cfg0.win 4).blk t).view.read (Elt Ideal) W4) (((cfg0.win 5).blk t).view.read (Elt Ideal) b5) (((cfg0.win 6).blk t).view.read (Elt Ideal) W6) (((cfg0.win 7).blk t).view.read (Elt Ideal) b7) (((cfg0.win 8).blk t).view.read (Elt Ideal) W8) (((cfg0.win 9).blk t).view.read (Elt Ideal) b9) (((cfg0.win 10).blk t).view.read (Elt Ideal) W10) (((cfg0.win 11).blk t).view.read (Elt Ideal) b11) (((cfg0.win 12).blk t).view.read (Elt Ideal) W12) (((cfg0.win 13).blk t).view.read (Elt Ideal) b13) (((cfg0.win 14).blk t).view.read (Elt Ideal) W14) (((cfg0.win 15).blk t).view.read (Elt Ideal) b15)]
  obtain ⟨n0a, n0b, n1a, n1b, n2a, n2b, n3a, n3b, o1, o0⟩ := node_facts t
  funext j
  obtain ⟨p, h, rfl⟩ : ∃ (p : Fin 2000) (h : Fin 128), j = ix2 p h := ⟨j 0, j 1, eq_ix2 j⟩
  obtain ⟨r, hr⟩ : ∃ r : Fin 50000, r.val = win0_16.index t (0 : Fin 2) * 2000 + p.val :=
    ⟨⟨win0_16.index t (0 : Fin 2) * 2000 + p.val, by have := p.isLt; omega⟩, rfl⟩
  have he : ((cfg0.win 16).blk t).view.emb (ix2 p h) = (ix2 r h : S50000x128.Idx) := by
    funext a; apply Fin.ext
    match a with
    | ⟨0, _⟩ => show win0_16.index t (0 : Fin 2) * 2000 + 1 * p.val = r.val; omega
    | ⟨1, _⟩ => show win0_16.index t (1 : Fin 2) * 128 + 1 * h.val = h.val; omega
  show Block.gate (((cfg0.win 0).blk t).view.read (Elt Ideal) A0) (((cfg0.win 1).blk t).view.read (Elt Ideal) A1) (((cfg0.win 2).blk t).view.read (Elt Ideal) A2) (((cfg0.win 3).blk t).view.read (Elt Ideal) A3) (((cfg0.win 4).blk t).view.read (Elt Ideal) W4) (((cfg0.win 5).blk t).view.read (Elt Ideal) b5) (((cfg0.win 6).blk t).view.read (Elt Ideal) W6) (((cfg0.win 7).blk t).view.read (Elt Ideal) b7) (((cfg0.win 8).blk t).view.read (Elt Ideal) W8) (((cfg0.win 9).blk t).view.read (Elt Ideal) b9) (((cfg0.win 10).blk t).view.read (Elt Ideal) W10) (((cfg0.win 11).blk t).view.read (Elt Ideal) b11) (((cfg0.win 12).blk t).view.read (Elt Ideal) W12) (((cfg0.win 13).blk t).view.read (Elt Ideal) b13) (((cfg0.win 14).blk t).view.read (Elt Ideal) W14) (((cfg0.win 15).blk t).view.read (Elt Ideal) b15) (ix2 p h) = hidden A0 A1 A2 A3 W4 b5 W6 b7 W8 b9 W10 b11 W12 b13 W14 b15 (((cfg0.win 16).blk t).view.emb (ix2 p h))
  rw [he, Block.gate_entry (((cfg0.win 0).blk t).view.read (Elt Ideal) A0) (((cfg0.win 1).blk t).view.read (Elt Ideal) A1) (((cfg0.win 2).blk t).view.read (Elt Ideal) A2) (((cfg0.win 3).blk t).view.read (Elt Ideal) A3) (((cfg0.win 4).blk t).view.read (Elt Ideal) W4) (((cfg0.win 5).blk t).view.read (Elt Ideal) b5) (((cfg0.win 6).blk t).view.read (Elt Ideal) W6) (((cfg0.win 7).blk t).view.read (Elt Ideal) b7) (((cfg0.win 8).blk t).view.read (Elt Ideal) W8) (((cfg0.win 9).blk t).view.read (Elt Ideal) b9) (((cfg0.win 10).blk t).view.read (Elt Ideal) W10) (((cfg0.win 11).blk t).view.read (Elt Ideal) b11) (((cfg0.win 12).blk t).view.read (Elt Ideal) W12) (((cfg0.win 13).blk t).view.read (Elt Ideal) b13) (((cfg0.win 14).blk t).view.read (Elt Ideal) W14) (((cfg0.win 15).blk t).view.read (Elt Ideal) b15) p h]
  show _ = GruRow.gru (row A0 r) (row A1 r) (row A2 r) (row A3 r)
    (Block.pair W4) (Block.vec b5) (Block.pair W6) (Block.vec b7) (Block.pair W8) (Block.vec b9) (Block.pair W10) (Block.vec b11)
    (Block.pair W12) (Block.vec b13) (Block.pair W14) (Block.vec b15) h
  rw [row_0 A0 t p r hr, row_1 A1 t p r hr, row_2 A2 t p r hr, row_3 A3 t p r hr, pair_4 W4 t, vec_5 b5 t, pair_6 W6 t, vec_7 b7 t, pair_8 W8 t, vec_9 b9 t, pair_10 W10 t, vec_11 b11 t, pair_12 W12 t, vec_13 b13 t, pair_14 W14 t, vec_15 b15 t]

/-! ## The cover -/

/-- An index of the array is in point `t`'s output block iff each coordinate is in the block's range on its axis. -/
theorem mem_blk (t : Fin cfg0.N) (i : S50000x128.Idx) :
    i ∈ ((cfg0.win 16).blk t).view.set ↔ ∀ a : Fin 2, win0_16.index t a * S2000x128.size a ≤ (i a).val ∧ (i a).val < win0_16.index t a * S2000x128.size a + S2000x128.size a := by
  show i ∈ ((View.whole main_v58).slice (win0_16.rect t)).set ↔ _
  rw [View.set_slice_whole, Rect.mem_set_unit]
  exact Iff.rfl

/-- Every index of the array is in some point's output block: row `n` is in block `n / 2000`. -/
theorem cover (i : S50000x128.Idx) : ∃ t : Fin cfg0.N, (cfg0.win 16).flush t = true ∧ i ∈ ((cfg0.win 16).blk t).view.set := by
  have hi0 : (i 0).val < 50000 := (i 0).isLt
  have hi1 : (i 1).val < 128 := (i 1).isLt
  obtain ⟨t, ht⟩ := idx_onto ⟨(i 0).val / 2000, by omega⟩
  have ht' : win0_16.index t (0 : Fin 2) = (i 0).val / 2000 := ht
  obtain ⟨n0a, n0b, n1a, n1b, n2a, n2b, n3a, n3b, o1, o0⟩ := node_facts t
  refine ⟨t, flush0_16 t, ?_⟩
  rw [mem_blk]
  intro a
  match a with
  | ⟨0, _⟩ => show win0_16.index t (0 : Fin 2) * 2000 ≤ (i 0).val ∧ (i 0).val < win0_16.index t (0 : Fin 2) * 2000 + 2000; omega
  | ⟨1, _⟩ => show win0_16.index t (1 : Fin 2) * 128 ≤ (i 1).val ∧ (i 1).val < win0_16.index t (1 : Fin 2) * 128 + 128; omega

/-! ## The kernel's arrays -/

variable (m : (ℓ : Loc nD τ sig) → Buf (Elt Ideal) ℓ) (ρ : Dev nD → PrngReg)

/-- What the result array ends holding: `hidden` of the sixteen arrays as the kernel finds them. -/
def G (c : Dev nD) : S50000x128.Idx → EReal :=
  hidden (V m c main_arg1) (V m c main_arg2) (V m c main_v33) (V m c main_v57) (V m c main_arg3) (V m c main_arg4) (V m c main_arg5) (V m c main_arg6) (V m c main_arg7) (V m c main_arg8) (V m c main_arg9) (V m c main_arg10) (V m c main_arg11) (V m c main_arg12) (V m c main_arg13) (V m c main_arg14)

theorem iblk_0 (c : Dev nD) (t : Fin cfg0.N) : iblk m c 0 t = (((cfg0.win 0).blk t).view.read (Elt Ideal) (V m c main_arg1)) := rfl
theorem iblk_1 (c : Dev nD) (t : Fin cfg0.N) : iblk m c 1 t = (((cfg0.win 1).blk t).view.read (Elt Ideal) (V m c main_arg2)) := rfl
theorem iblk_2 (c : Dev nD) (t : Fin cfg0.N) : iblk m c 2 t = (((cfg0.win 2).blk t).view.read (Elt Ideal) (V m c main_v33)) := rfl
theorem iblk_3 (c : Dev nD) (t : Fin cfg0.N) : iblk m c 3 t = (((cfg0.win 3).blk t).view.read (Elt Ideal) (V m c main_v57)) := rfl
theorem iblk_4 (c : Dev nD) (t : Fin cfg0.N) : iblk m c 4 t = (((cfg0.win 4).blk t).view.read (Elt Ideal) (V m c main_arg3)) := rfl
theorem iblk_5 (c : Dev nD) (t : Fin cfg0.N) : iblk m c 5 t = (((cfg0.win 5).blk t).view.read (Elt Ideal) (V m c main_arg4)) := rfl
theorem iblk_6 (c : Dev nD) (t : Fin cfg0.N) : iblk m c 6 t = (((cfg0.win 6).blk t).view.read (Elt Ideal) (V m c main_arg5)) := rfl
theorem iblk_7 (c : Dev nD) (t : Fin cfg0.N) : iblk m c 7 t = (((cfg0.win 7).blk t).view.read (Elt Ideal) (V m c main_arg6)) := rfl
theorem iblk_8 (c : Dev nD) (t : Fin cfg0.N) : iblk m c 8 t = (((cfg0.win 8).blk t).view.read (Elt Ideal) (V m c main_arg7)) := rfl
theorem iblk_9 (c : Dev nD) (t : Fin cfg0.N) : iblk m c 9 t = (((cfg0.win 9).blk t).view.read (Elt Ideal) (V m c main_arg8)) := rfl
theorem iblk_10 (c : Dev nD) (t : Fin cfg0.N) : iblk m c 10 t = (((cfg0.win 10).blk t).view.read (Elt Ideal) (V m c main_arg9)) := rfl
theorem iblk_11 (c : Dev nD) (t : Fin cfg0.N) : iblk m c 11 t = (((cfg0.win 11).blk t).view.read (Elt Ideal) (V m c main_arg10)) := rfl
theorem iblk_12 (c : Dev nD) (t : Fin cfg0.N) : iblk m c 12 t = (((cfg0.win 12).blk t).view.read (Elt Ideal) (V m c main_arg11)) := rfl
theorem iblk_13 (c : Dev nD) (t : Fin cfg0.N) : iblk m c 13 t = (((cfg0.win 13).blk t).view.read (Elt Ideal) (V m c main_arg12)) := rfl
theorem iblk_14 (c : Dev nD) (t : Fin cfg0.N) : iblk m c 14 t = (((cfg0.win 14).blk t).view.read (Elt Ideal) (V m c main_arg13)) := rfl
theorem iblk_15 (c : Dev nD) (t : Fin cfg0.N) : iblk m c 15 t = (((cfg0.win 15).blk t).view.read (Elt Ideal) (V m c main_arg14)) := rfl

set_option maxHeartbeats 1600000 in
/-- Point `t` writes back block `t` of `G`. -/
theorem flushed_eq (c : Dev nD) (t : Fin cfg0.N) :
    (dats m 0 c).flushed 16 t = ((cfg0.win 16).blk t).view.read (Elt Ideal) (G m c) := by
  rw [Value.flushed16, iblk_0 m c t, iblk_1 m c t, iblk_2 m c t, iblk_3 m c t, iblk_4 m c t, iblk_5 m c t, iblk_6 m c t, iblk_7 m c t, iblk_8 m c t, iblk_9 m c t, iblk_10 m c t, iblk_11 m c t, iblk_12 m c t, iblk_13 m c t, iblk_14 m c t, iblk_15 m c t]
  exact point_block (V m c main_arg1) (V m c main_arg2) (V m c main_v33) (V m c main_v57) (V m c main_arg3) (V m c main_arg5) (V m c main_arg7) (V m c main_arg9) (V m c main_arg11) (V m c main_arg13) (V m c main_arg4) (V m c main_arg6) (V m c main_arg8) (V m c main_arg10) (V m c main_arg12) (V m c main_arg14) t

/-- The result array after the run is `G`. -/
theorem final (c : Dev nD) : (dats m 0 c).arrAt 16 cfg0.N = G m c :=
  (dats m 0 c).arrAt_eq_of_cover 16 (G m c) (fun t _ => flushed_eq m c t) cover
/-- The kernel's run, read: the result array at `G`, the arguments unchanged. -/
theorem run : θ_run defs (onTc (τ := τ) (main (F := Ideal))) ⟨m, fun _ => 0, ρ⟩ fun r => ∀ c : Dev nD,
      r.2.mem ((c : Thread nD τ).loc main_v58) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final m c), (h c).2⟩) (Value.run_blocks m ρ)

end Cert.KernelIdeal.Whole

end
-- ==== Proof.RefGate.lean ====
/-
  What the reference computes, entry by entry, at the ideal values, from the stage where the two propagated
  arrays `px`, `ph` are in hand.

  After the propagation the reference is six copies of one piece — a slice and a reshape of a stacked weight pair,
  two contractions over the 128 features, their sum, and a bias broadcast over all 50000 nodes — joined by sums,
  products, a difference from one, and three logistic functions spelt out as 1 / (1 + e^(−z)). The piece at (n, h)
  is `GruRow.cheb` of row `n` of its two node arrays, the spelt-out logistic is the logistic function on every
  extended real, and so the result at (n, h) is `GruRow.gru` of row `n` of `x`, `hx`, `px`, `ph`. The propagated
  arrays themselves (a gather along the edges, a scatter-add, the degree normalisation) are never opened: they
  enter as the two stages `val_main_v33`, `val_main_v57` of the arguments.
-/
import proofs.«130233_j12317966205535_1_alg».proof.Proof.Gen.ReferenceIdeal.Read
import proofs.«130233_j12317966205535_1_alg».proof.Proof.GruRow
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Gate

open Cert.ReferenceIdeal Cert.ReferenceIdeal.Gen Cert.ReferenceIdeal.Read Idealize.ShloMosaic Idealize.ShloMosaic.ValueIdx

/-! ## Rows, weight pairs and biases as plain functions -/

/-- Row `n` of an array over all 50000 nodes. -/
def row (X : S50000x128.Idx → EReal) (n : Fin 50000) : Fin 128 → EReal := fun k => X (ix2 n k)

/-- A stacked pair of 128 × 128 matrices as a function of (layer, row, column). -/
def pair (W : S2x128x128.Idx → EReal) : Fin 2 → Fin 128 → Fin 128 → EReal := fun l k h => W (ix3 l k h)

/-- A bias vector as a function of the column. -/
def vec (b : S128.Idx → EReal) : Fin 128 → EReal := fun h => b (ix1 h)

/-! ## One contraction, the layers of a weight pair, the bias -/

/-- A [50000, 128] × [128, 128] contraction on the host, at (n, h): the sum over the 128 features. -/
theorem product_entry (L : FVec Ideal S50000x128 .f32) (R : FVec Ideal S128x128 .f32) (n : Fin 50000) (h : Fin 128) :
    Host.dotGeneral dot_S50000x128_S128x128_S50000x128_1_0_0_1_n_n none L R (ix2 n h) = ∑ k : Fin 128, L (ix2 n k) * R (ix2 k h) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 n h) ((ValueIdx.contrEquiv1 dot_S50000x128_S128x128_S50000x128_1_0_0_1_n_n 128 rfl rfl).symm k) = ix2 n k := funext fun a => Fin.ext (by
    match a with
    | ⟨0, _⟩ => exact lhs_main_v60_0 _ _
    | ⟨1, _⟩ => exact (lhs_main_v60_1 _ _).trans hk)
  have er : dot_S50000x128_S128x128_S50000x128_1_0_0_1_n_n.rhsIdx (ix2 n h) ((ValueIdx.contrEquiv1 dot_S50000x128_S128x128_S50000x128_1_0_0_1_n_n 128 rfl rfl).symm k) = ix2 k h := funext fun a => Fin.ext (by
    match a with
    | ⟨0, _⟩ => exact (rhs_main_v60_0 _ _).trans hk
    | ⟨1, _⟩ => exact rhs_main_v60_1 _ _)
  rw [el, er]

/-- Layer 0 of a stacked pair, sliced out and reshaped to a matrix, at (k, h). -/
theorem layer0_entry (W : S2x128x128.Idx → EReal) (k h : Fin 128) :
    shapeCast S128x128 (extractStridedSlice S1x128x128 ![0, 0, 0] W slices_S2x128x128_S1x128x128_0_0_0) shapeCasts_S1x128x128_S128x128 (ix2 k h)
      = W (ix3 (0 : Fin 2) k h) :=
  (shapeCast_1ab_ab_apply _ shapeCasts_S1x128x128_S128x128 k h).trans
    (extractStridedSlice_apply ![0, 0, 0] W slices_S2x128x128_S1x128x128_0_0_0 (ix3 (0 : Fin 1) k h) (ix3 (0 : Fin 2) k h) (fun a => match a with
      | ⟨0, _⟩ => by show 0 = 0 + 0; rfl
      | ⟨1, _⟩ => by show k.val = 0 + k.val; omega
      | ⟨2, _⟩ => by show h.val = 0 + h.val; omega))

/-- Layer 1 of a stacked pair, sliced out and reshaped to a matrix, at (k, h). -/
theorem layer1_entry (W : S2x128x128.Idx → EReal) (k h : Fin 128) :
    shapeCast S128x128 (extractStridedSlice S1x128x128 ![1, 0, 0] W slices_S2x128x128_S1x128x128_1_0_0) shapeCasts_S1x128x128_S128x128 (ix2 k h)
      = W (ix3 (1 : Fin 2) k h) :=
  (shapeCast_1ab_ab_apply _ shapeCasts_S1x128x128_S128x128 k h).trans
    (extractStridedSlice_apply ![1, 0, 0] W slices_S2x128x128_S1x128x128_1_0_0 (ix3 (0 : Fin 1) k h) (ix3 (1 : Fin 2) k h) (fun a => match a with
      | ⟨0, _⟩ => by show 1 = 1 + 0; rfl
      | ⟨1, _⟩ => by show k.val = 0 + k.val; omega
      | ⟨2, _⟩ => by show h.val = 0 + h.val; omega))

/-- A bias vector broadcast to one row and then over all the nodes, at (n, h). -/
theorem bias_entry (b : S128.Idx → EReal) (n : Fin 50000) (h : Fin 128) :
    broadcastInDim S50000x128 ![0, 1] bcast_S1x128_S50000x128_0_1 (broadcastInDim S1x128 ![1] bcast_S128_S1x128_1 b) (ix2 n h) = b (ix1 h) :=
  (broadcastInDim_apply _ bcast_S1x128_S50000x128_0_1 _ (ix2 n h) (ix2 (0 : Fin 1) h) (fun a => match a with
      | ⟨0, _⟩ => by show 0 = if (1 : Nat) = 1 then 0 else n.val; rw [if_pos rfl]
      | ⟨1, _⟩ => by show h.val = if (128 : Nat) = 1 then 0 else h.val; rw [if_neg (by decide)])).trans
    (broadcastInDim_apply _ bcast_S128_S1x128_1 b (ix2 (0 : Fin 1) h) (ix1 h) (fun a => match a with
      | ⟨0, _⟩ => by show h.val = if (128 : Nat) = 1 then 0 else h.val; rw [if_neg (by decide)]))

/-! ## One convolution piece -/

/-- The piece the reference repeats six times: `A · W[0] + P · W[1] + b`. -/
def conv (A P : FVec Ideal S50000x128 .f32) (W : FVec Ideal S2x128x128 .f32) (b : FVec Ideal S128 .f32) : FVec Ideal S50000x128 .f32 :=
  addf
    (addf
      (Host.dotGeneral dot_S50000x128_S128x128_S50000x128_1_0_0_1_n_n none A
        (shapeCast S128x128 (extractStridedSlice S1x128x128 ![0, 0, 0] W slices_S2x128x128_S1x128x128_0_0_0) shapeCasts_S1x128x128_S128x128))
      (Host.dotGeneral dot_S50000x128_S128x128_S50000x128_1_0_0_1_n_n none P
        (shapeCast S128x128 (extractStridedSlice S1x128x128 ![1, 0, 0] W slices_S2x128x128_S1x128x128_1_0_0) shapeCasts_S1x128x128_S128x128)))
    (broadcastInDim S50000x128 ![0, 1] bcast_S1x128_S50000x128_0_1 (broadcastInDim S1x128 ![1] bcast_S128_S1x128_1 b))

/-- The piece at (n, h) is the row convolution of row `n` of its two node arrays. -/
theorem conv_entry (A P : FVec Ideal S50000x128 .f32) (W : FVec Ideal S2x128x128 .f32) (b : FVec Ideal S128 .f32) (n : Fin 50000) (h : Fin 128) :
    conv A P W b (ix2 n h) = GruRow.cheb (row A n) (row P n) (pair W) (vec b) h := by
  unfold conv GruRow.cheb row pair vec
  rw [addf_apply, addf_apply, product_entry, product_entry, bias_entry]
  simp only [layer0_entry, layer1_entry]

/-! ## The logistic function as the reference spells it -/

/-- `1 / (1 + e^(−z))` entry by entry, the ones as single-precision constants. -/
def sigm (z : FVec Ideal S50000x128 .f32) : FVec Ideal S50000x128 .f32 :=
  Host.divf (broadcastInDim S50000x128 ![] bcast_S_S50000x128 (constant S_ .f32 0x3F800000#32)) (addf (broadcastInDim S50000x128 ![] bcast_S_S50000x128 (constant S_ .f32 0x3F800000#32)) (Host.exp (Host.negf z)))

/-- It is the logistic function at every entry, whatever extended real the entry of `z` is. -/
theorem sigm_entry (z : FVec Ideal S50000x128 .f32) (i : S50000x128.Idx) : sigm z i = Ideal.logistic (z i) :=
  GruRow.logistic_spelt (z i)

/-! ## The result -/

/-- The reference's result over the convolution piece and the spelt-out logistic. -/
def gate (x hx px ph : FVec Ideal S50000x128 .f32)
    (Wrx : FVec Ideal S2x128x128 .f32) (brx : FVec Ideal S128 .f32) (Wrh : FVec Ideal S2x128x128 .f32) (brh : FVec Ideal S128 .f32)
    (Wux : FVec Ideal S2x128x128 .f32) (bux : FVec Ideal S128 .f32) (Wuh : FVec Ideal S2x128x128 .f32) (buh : FVec Ideal S128 .f32)
    (Wcx : FVec Ideal S2x128x128 .f32) (bcx : FVec Ideal S128 .f32) (Wch : FVec Ideal S2x128x128 .f32) (bch : FVec Ideal S128 .f32) :
    FVec Ideal S50000x128 .f32 :=
  addf
    (mulf (sigm (addf (conv x px Wux bux) (conv hx ph Wuh buh))) hx)
    (mulf
      (subf (broadcastInDim S50000x128 ![] bcast_S_S50000x128 (constant S_ .f32 0x3F800000#32)) (sigm (addf (conv x px Wux bux) (conv hx ph Wuh buh))))
      (sigm (addf (conv x px Wcx bcx)
        (mulf (conv hx ph Wch bch) (sigm (addf (conv x px Wrx brx) (conv hx ph Wrh brh)))))))

section stages

variable (x0 : (⟨S2x1600000, .i32⟩ : BufTy).Contents (Elt Ideal)) (x1 x2 : (⟨S50000x128, .f32⟩ : BufTy).Contents (Elt Ideal))
  (x3 x5 x7 x9 x11 x13 : (⟨S2x128x128, .f32⟩ : BufTy).Contents (Elt Ideal)) (x4 x6 x8 x10 x12 x14 : (⟨S128, .f32⟩ : BufTy).Contents (Elt Ideal))

/-- The reset gate's convolution of the input. -/
theorem stage_rx : val_main_v67 (F := Ideal) x0 x1 x3 x4 = conv x1 (val_main_v33 (F := Ideal) x0 x1) x3 x4 := rfl
/-- The reset gate's convolution of the hidden state. -/
theorem stage_rh : val_main_v77 (F := Ideal) x0 x2 x5 x6 = conv x2 (val_main_v57 (F := Ideal) x0 x2) x5 x6 := rfl
/-- The update gate's convolution of the input. -/
theorem stage_ux : val_main_v94 (F := Ideal) x0 x1 x7 x8 = conv x1 (val_main_v33 (F := Ideal) x0 x1) x7 x8 := rfl
/-- The update gate's convolution of the hidden state. -/
theorem stage_uh : val_main_v104 (F := Ideal) x0 x2 x9 x10 = conv x2 (val_main_v57 (F := Ideal) x0 x2) x9 x10 := rfl
/-- The candidate's convolution of the input. -/
theorem stage_cx : val_main_v121 (F := Ideal) x0 x1 x11 x12 = conv x1 (val_main_v33 (F := Ideal) x0 x1) x11 x12 := rfl
/-- The candidate's convolution of the hidden state. -/
theorem stage_ch : val_main_v131 (F := Ideal) x0 x2 x13 x14 = conv x2 (val_main_v57 (F := Ideal) x0 x2) x13 x14 := rfl

/-- The reset gate. -/
theorem stage_r : val_main_v84 (F := Ideal) x0 x1 x2 x3 x4 x5 x6
    = sigm (addf (conv x1 (val_main_v33 (F := Ideal) x0 x1) x3 x4) (conv x2 (val_main_v57 (F := Ideal) x0 x2) x5 x6)) := by
  rw [← stage_rx, ← stage_rh]; rfl

/-- The update gate. -/
theorem stage_u : val_main_v111 (F := Ideal) x0 x1 x2 x7 x8 x9 x10
    = sigm (addf (conv x1 (val_main_v33 (F := Ideal) x0 x1) x7 x8) (conv x2 (val_main_v57 (F := Ideal) x0 x2) x9 x10)) := by
  rw [← stage_ux, ← stage_uh]; rfl

/-- The candidate. -/
theorem stage_c : val_main_v139 (F := Ideal) x0 x1 x2 x3 x4 x5 x6 x11 x12 x13 x14
    = sigm (addf (conv x1 (val_main_v33 (F := Ideal) x0 x1) x11 x12)
        (mulf (conv x2 (val_main_v57 (F := Ideal) x0 x2) x13 x14)
          (sigm (addf (conv x1 (val_main_v33 (F := Ideal) x0 x1) x3 x4) (conv x2 (val_main_v57 (F := Ideal) x0 x2) x5 x6))))) := by
  rw [← stage_cx, ← stage_ch, ← stage_r]; rfl

/-- The reference's last stage is `gate` of the arguments and the two propagated arrays. -/
theorem result_eq : val_main_v144 (F := Ideal) x0 x1 x2 x3 x4 x5 x6 x7 x8 x9 x10 x11 x12 x13 x14
    = gate x1 x2 (val_main_v33 (F := Ideal) x0 x1) (val_main_v57 (F := Ideal) x0 x2) x3 x4 x5 x6 x7 x8 x9 x10 x11 x12 x13 x14 := by
  unfold gate
  rw [← stage_u, ← stage_c]; rfl

end stages

/-- The result at (n, h) is the row function of row `n` of the four node arrays. -/
theorem gate_entry (x hx px ph : FVec Ideal S50000x128 .f32)
    (Wrx : FVec Ideal S2x128x128 .f32) (brx : FVec Ideal S128 .f32) (Wrh : FVec Ideal S2x128x128 .f32) (brh : FVec Ideal S128 .f32)
    (Wux : FVec Ideal S2x128x128 .f32) (bux : FVec Ideal S128 .f32) (Wuh : FVec Ideal S2x128x128 .f32) (buh : FVec Ideal S128 .f32)
    (Wcx : FVec Ideal S2x128x128 .f32) (bcx : FVec Ideal S128 .f32) (Wch : FVec Ideal S2x128x128 .f32) (bch : FVec Ideal S128 .f32)
    (n : Fin 50000) (h : Fin 128) :
    gate x hx px ph Wrx brx Wrh brh Wux bux Wuh buh Wcx bcx Wch bch (ix2 n h)
      = GruRow.gru (row x n) (row hx n) (row px n) (row ph n) (pair Wrx) (vec brx) (pair Wrh) (vec brh)
          (pair Wux) (vec bux) (pair Wuh) (vec buh) (pair Wcx) (vec bcx) (pair Wch) (vec bch) h := by
  show sigm (addf (conv x px Wux bux) (conv hx ph Wuh buh)) (ix2 n h) * hx (ix2 n h)
      + (Ideal.ofBits .f32 0x3F800000#32 - sigm (addf (conv x px Wux bux) (conv hx ph Wuh buh)) (ix2 n h))
        * sigm (addf (conv x px Wcx bcx) (mulf (conv hx ph Wch bch) (sigm (addf (conv x px Wrx brx) (conv hx ph Wrh brh))))) (ix2 n h) = _
  rw [sigm_entry, sigm_entry]
  show Ideal.logistic (conv x px Wux bux (ix2 n h) + conv hx ph Wuh buh (ix2 n h)) * hx (ix2 n h)
      + (Ideal.ofBits .f32 0x3F800000#32 - Ideal.logistic (conv x px Wux bux (ix2 n h) + conv hx ph Wuh buh (ix2 n h)))
        * Ideal.logistic (conv x px Wcx bcx (ix2 n h)
            + conv hx ph Wch bch (ix2 n h) * sigm (addf (conv x px Wrx brx) (conv hx ph Wrh brh)) (ix2 n h)) = _
  rw [sigm_entry]
  show Ideal.logistic (conv x px Wux bux (ix2 n h) + conv hx ph Wuh buh (ix2 n h)) * hx (ix2 n h)
      + (Ideal.ofBits .f32 0x3F800000#32 - Ideal.logistic (conv x px Wux bux (ix2 n h) + conv hx ph Wuh buh (ix2 n h)))
        * Ideal.logistic (conv x px Wcx bcx (ix2 n h)
            + conv hx ph Wch bch (ix2 n h) * Ideal.logistic (conv x px Wrx brx (ix2 n h) + conv hx ph Wrh brh (ix2 n h))) = _
  rw [GruRow.one_f32, conv_entry, conv_entry, conv_entry, conv_entry, conv_entry, conv_entry]
  rfl

end Cert.ReferenceIdeal.Gate

end
-- ==== Proof.Propagated.lean ====
/-
  The propagated features are one function of the arguments in both programs.

  Before its kernel is launched, the kernel's program computes on the host, from the edge list and a node array,
  the degree of every node (a scatter-add of ones along the destinations), the normalisation `rsqrt (max 1 degree)`,
  and the propagated array `−(Σ_{edges into n} x[src] · norm[src]) · norm[n]` (a gather along the sources, a product, a
  scatter-add along the destinations, a product, a negation) — once for the input and once for the hidden state.
  The reference computes the same two arrays by the same operations in the same order. So the contents the kernel
  finds in its two propagated windows are, as terms of the argument arrays, the reference's stages for them:
  the two chains are set side by side and never opened, neither the gather nor the scatter-add. (One function
  the compiler outlined, the clip of the degree from below at one, runs through typed references whose
  transports along a buffer's type are identities: `call_strip` removes them before the two terms are compared.)
-/
import proofs.«130233_j12317966205535_1_alg».proof.Proof.Gen.KernelIdeal.Frame
import proofs.«130233_j12317966205535_1_alg».proof.Proof.Gen.ReferenceIdeal.Read
import Idealize.ShloMosaic.Lib.StableHlo.Run

noncomputable section

namespace Cert.Propagated

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- The clip call's transports along its buffers' types are identities: the call computes `max (broadcast one) d`. -/
theorem call_strip (one : S_.Idx → EReal) (d : S50000.Idx → EReal) :
    (TRef.of (T := ⟨S50000, .f32⟩) main_v8 : TRef sig ⟨S50000, .f32⟩).toBuf (Val := Elt Ideal)
      (maximumf (F := Ideal) (s := S50000) (φ := .f32)
        ((TRef.of (T := ⟨S50000, .f32⟩) main_call0_v1 : TRef sig ⟨S50000, .f32⟩).ofBuf (Val := Elt Ideal)
          ((TRef.of (T := ⟨S50000, .f32⟩) main_call0_v1 : TRef sig ⟨S50000, .f32⟩).toBuf (Val := Elt Ideal)
            (broadcastInDim S50000 ![] bcast_S_S50000
              ((TRef.of (T := ⟨S_, .f32⟩) main_call0_v0 : TRef sig ⟨S_, .f32⟩).ofBuf (Val := Elt Ideal)
                ((TRef.of (T := ⟨S_, .f32⟩) main_call0_v0 : TRef sig ⟨S_, .f32⟩).toBuf (Val := Elt Ideal)
                  (id ((TRef.of (T := ⟨S_, .f32⟩) main_cst_1 : TRef sig ⟨S_, .f32⟩).ofBuf (Val := Elt Ideal) one)))))))
        ((TRef.of (T := ⟨S50000, .f32⟩) main_v7 : TRef sig ⟨S50000, .f32⟩).ofBuf (Val := Elt Ideal) d))
      = maximumf (F := Ideal) (s := S50000) (φ := .f32) (broadcastInDim S50000 ![] bcast_S_S50000 one) d := rfl

set_option maxRecDepth 8192 in
/-- The propagated input the kernel finds is the reference's stage for it, of the kernel's own arguments. -/
theorem px_eq (c : Dev nD) :
    V m c main_v33
      = Cert.ReferenceIdeal.Read.val_main_v33 (F := Ideal) (m ((c : Thread nD τ).loc main_arg0)) (m ((c : Thread nD τ).loc main_arg1)) := by
  dsimp only [V]
  simp only [hostOps0, hostOps0_1, hostOps0_2, List.flatten_cons, List.flatten_nil, List.append_nil, List.cons_append, List.nil_append]
  after_results_simp
  rw [call_strip]
  unfold Cert.ReferenceIdeal.Read.val_main_v33 Cert.ReferenceIdeal.Read.val_main_v32 Cert.ReferenceIdeal.Read.val_main_v31 Cert.ReferenceIdeal.Read.val_main_v30 Cert.ReferenceIdeal.Read.val_main_v29 Cert.ReferenceIdeal.Read.val_main_v28 Cert.ReferenceIdeal.Read.val_main_v27 Cert.ReferenceIdeal.Read.val_main_cst_5 Cert.ReferenceIdeal.Read.val_main_v26 Cert.ReferenceIdeal.Read.val_main_v25 Cert.ReferenceIdeal.Read.val_main_v24 Cert.ReferenceIdeal.Read.val_main_v23 Cert.ReferenceIdeal.Read.val_main_v22 Cert.ReferenceIdeal.Read.val_main_v21 Cert.ReferenceIdeal.Read.val_main_v20 Cert.ReferenceIdeal.Read.val_main_v19 Cert.ReferenceIdeal.Read.val_main_c_4 Cert.ReferenceIdeal.Read.val_main_v18 Cert.ReferenceIdeal.Read.val_main_v17 Cert.ReferenceIdeal.Read.val_main_c_3 Cert.ReferenceIdeal.Read.val_main_v16 Cert.ReferenceIdeal.Read.val_main_v15 Cert.ReferenceIdeal.Read.val_main_v14 Cert.ReferenceIdeal.Read.val_main_v13 Cert.ReferenceIdeal.Read.val_main_v12 Cert.ReferenceIdeal.Read.val_main_c_2 Cert.ReferenceIdeal.Read.val_main_v11 Cert.ReferenceIdeal.Read.val_main_v10 Cert.ReferenceIdeal.Read.val_main_c Cert.ReferenceIdeal.Read.val_main_v9 Cert.ReferenceIdeal.Read.val_main_v8 Cert.ReferenceIdeal.Read.val_main_call0_v1 Cert.ReferenceIdeal.Read.val_main_call0_v0 Cert.ReferenceIdeal.Read.val_main_cst_1 Cert.ReferenceIdeal.Read.val_main_v7 Cert.ReferenceIdeal.Read.val_main_v6 Cert.ReferenceIdeal.Read.val_main_v5 Cert.ReferenceIdeal.Read.val_main_cst_0 Cert.ReferenceIdeal.Read.val_main_v4 Cert.ReferenceIdeal.Read.val_main_cst Cert.ReferenceIdeal.Read.val_main_v3 Cert.ReferenceIdeal.Read.val_main_v2 Cert.ReferenceIdeal.Read.val_main_v1 Cert.ReferenceIdeal.Read.val_main_v0
  rfl

set_option maxRecDepth 8192 in
/-- The propagated hidden state the kernel finds is the reference's stage for it, of the kernel's own arguments. -/
theorem ph_eq (c : Dev nD) :
    V m c main_v57
      = Cert.ReferenceIdeal.Read.val_main_v57 (F := Ideal) (m ((c : Thread nD τ).loc main_arg0)) (m ((c : Thread nD τ).loc main_arg2)) := by
  dsimp only [V]
  simp only [hostOps0, hostOps0_1, hostOps0_2, List.flatten_cons, List.flatten_nil, List.append_nil, List.cons_append, List.nil_append]
  after_results_simp
  rw [call_strip]
  unfold Cert.ReferenceIdeal.Read.val_main_v57 Cert.ReferenceIdeal.Read.val_main_v56 Cert.ReferenceIdeal.Read.val_main_v55 Cert.ReferenceIdeal.Read.val_main_v54 Cert.ReferenceIdeal.Read.val_main_v53 Cert.ReferenceIdeal.Read.val_main_v52 Cert.ReferenceIdeal.Read.val_main_v51 Cert.ReferenceIdeal.Read.val_main_cst_10 Cert.ReferenceIdeal.Read.val_main_v50 Cert.ReferenceIdeal.Read.val_main_v49 Cert.ReferenceIdeal.Read.val_main_v48 Cert.ReferenceIdeal.Read.val_main_v47 Cert.ReferenceIdeal.Read.val_main_v46 Cert.ReferenceIdeal.Read.val_main_v45 Cert.ReferenceIdeal.Read.val_main_v44 Cert.ReferenceIdeal.Read.val_main_v43 Cert.ReferenceIdeal.Read.val_main_c_9 Cert.ReferenceIdeal.Read.val_main_v42 Cert.ReferenceIdeal.Read.val_main_v41 Cert.ReferenceIdeal.Read.val_main_c_8 Cert.ReferenceIdeal.Read.val_main_v40 Cert.ReferenceIdeal.Read.val_main_v39 Cert.ReferenceIdeal.Read.val_main_v38 Cert.ReferenceIdeal.Read.val_main_v37 Cert.ReferenceIdeal.Read.val_main_v36 Cert.ReferenceIdeal.Read.val_main_c_7 Cert.ReferenceIdeal.Read.val_main_v35 Cert.ReferenceIdeal.Read.val_main_v34 Cert.ReferenceIdeal.Read.val_main_c_6 Cert.ReferenceIdeal.Read.val_main_v9 Cert.ReferenceIdeal.Read.val_main_v8 Cert.ReferenceIdeal.Read.val_main_call0_v1 Cert.ReferenceIdeal.Read.val_main_call0_v0 Cert.ReferenceIdeal.Read.val_main_cst_1 Cert.ReferenceIdeal.Read.val_main_v7 Cert.ReferenceIdeal.Read.val_main_v6 Cert.ReferenceIdeal.Read.val_main_v5 Cert.ReferenceIdeal.Read.val_main_cst_0 Cert.ReferenceIdeal.Read.val_main_v4 Cert.ReferenceIdeal.Read.val_main_cst Cert.ReferenceIdeal.Read.val_main_v3 Cert.ReferenceIdeal.Read.val_main_v2 Cert.ReferenceIdeal.Read.val_main_v1 Cert.ReferenceIdeal.Read.val_main_v0
  rfl

end Cert.Propagated

end
-- ==== Proof.Bridge.lean ====
/-
  The two results are one function of the arguments.

  The reference's result is `gate` of the arguments and the two propagated arrays (RefGate), and at (n, h) that is
  the row function `GruRow.gru` of row `n` of `x`, `hx`, `px`, `ph`. The kernel's result array is `hidden` of the
  sixteen arrays the kernel finds (KernelValue), at (n, h) the same row function of row `n` of those arrays. The
  kernel finds its twelve weight and bias arrays and `x`, `hx` as launched, and its two propagated arrays are the
  reference's stages of the same arguments (Propagated). So the two results agree entry by entry; rows, weight
  pairs and biases read as plain functions are the same functions whichever program's shapes they are typed over.
-/
import proofs.«130233_j12317966205535_1_alg».proof.Proof.KernelValue
import proofs.«130233_j12317966205535_1_alg».proof.Proof.RefGate
import proofs.«130233_j12317966205535_1_alg».proof.Proof.Propagated

noncomputable section

namespace Cert.Bridge

open Idealize.ShloMosaic Idealize.ShloMosaic.TcCoe Idealize.SL.Sem Idealize.ShloMosaic.ValueIdx
open Cert.KernelIdeal Cert.KernelIdeal.Gen

/-- A row of a node array read as a plain function is the same function in the two programs' spellings. -/
theorem row_eq (X : S50000x128.Idx → EReal) (n : Fin 50000) : Cert.ReferenceIdeal.Gate.row X n = Whole.row X n := rfl

/-- A stacked weight pair read as a plain function is the same function in the two programs' spellings. -/
theorem pair_eq (W : S2x128x128.Idx → EReal) : Cert.ReferenceIdeal.Gate.pair W = Block.pair W := rfl

/-- A bias read as a plain function is the same function in the two programs' spellings. -/
theorem vec_eq (b : S128.Idx → EReal) : Cert.ReferenceIdeal.Gate.vec b = Block.vec b := rfl

/-- `hidden` at (n, h), of arbitrary arrays. -/
theorem hidden_entry (x hx px ph : S50000x128.Idx → EReal)
    (Wrx : S2x128x128.Idx → EReal) (brx : S128.Idx → EReal) (Wrh : S2x128x128.Idx → EReal) (brh : S128.Idx → EReal)
    (Wux : S2x128x128.Idx → EReal) (bux : S128.Idx → EReal) (Wuh : S2x128x128.Idx → EReal) (buh : S128.Idx → EReal)
    (Wcx : S2x128x128.Idx → EReal) (bcx : S128.Idx → EReal) (Wch : S2x128x128.Idx → EReal) (bch : S128.Idx → EReal)
    (n : Fin 50000) (h : Fin 128) :
    Whole.hidden x hx px ph Wrx brx Wrh brh Wux bux Wuh buh Wcx bcx Wch bch (ix2 n h)
      = GruRow.gru (Whole.row x n) (Whole.row hx n) (Whole.row px n) (Whole.row ph n)
          (Block.pair Wrx) (Block.vec brx) (Block.pair Wrh) (Block.vec brh) (Block.pair Wux) (Block.vec bux)
          (Block.pair Wuh) (Block.vec buh) (Block.pair Wcx) (Block.vec bcx) (Block.pair Wch) (Block.vec bch) h := rfl

variable (m : (ℓ : Loc nD τ sig) → Buf (Elt Ideal) ℓ)

/-- The reference's `gate` of the kernel's own arguments is the array the kernel's result ends holding. -/
theorem results_agree (c : Dev nD) :
    Cert.ReferenceIdeal.Gate.gate (m ((c : Thread nD τ).loc main_arg1)) (m ((c : Thread nD τ).loc main_arg2))
        (Cert.ReferenceIdeal.Read.val_main_v33 (F := Ideal) (m ((c : Thread nD τ).loc main_arg0)) (m ((c : Thread nD τ).loc main_arg1)))
        (Cert.ReferenceIdeal.Read.val_main_v57 (F := Ideal) (m ((c : Thread nD τ).loc main_arg0)) (m ((c : Thread nD τ).loc main_arg2)))
        (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      = Whole.G m c := by
  funext i
  obtain ⟨n, h, rfl⟩ : ∃ (n : Fin 50000) (h : Fin 128), i = ix2 n h := ⟨i 0, i 1, eq_ix2 i⟩
  rw [Cert.ReferenceIdeal.Gate.gate_entry]
  unfold Whole.G
  rw [hidden_entry, V_main_arg1 m c, V_main_arg2 m c, V_main_arg3 m c, V_main_arg4 m c, V_main_arg5 m c, V_main_arg6 m c, V_main_arg7 m c, V_main_arg8 m c, V_main_arg9 m c, V_main_arg10 m c, V_main_arg11 m c, V_main_arg12 m c, V_main_arg13 m c, V_main_arg14 m c,
    Cert.Propagated.px_eq m c, Cert.Propagated.ph_eq m c]
  simp only [row_eq, pair_eq, vec_eq]

end Cert.Bridge

end
-- ==== Proof.lean ====
/-
  The certificate: a GRU cell whose gates are first-order Chebyshev graph convolutions, computed by a kernel over
  blocks of 2000 nodes with half-precision matrix products, against the same cell written with whole-array
  contractions.

  Both programs first propagate the input and the hidden state along the graph's edges on the host, by the same
  operations (Propagated). From there every entry (n, h) of the new hidden state is one function, `GruRow.gru`, of
  row `n` of four node arrays and of the six weight pairs and biases: the reference computes it with contractions
  over all 50000 nodes and the logistic function spelt out (RefGate); the kernel computes it block by block, a
  change of float format being the identity at the ideal values and the logistic function one operation
  (KernelBlock), and its 25 blocks tile the array (KernelValue). No algebraic law joins the two sides — the sums
  and products are the same, in the same arrangement — so the precondition that the inputs are finite is never
  opened. The three frames are the generated ones (the reference's is its generated run with the result dropped),
  and the idealization rewrote nothing, so `preserves` is trivial.
-/
import proofs.«130233_j12317966205535_1_alg».proof.Defs
import proofs.«130233_j12317966205535_1_alg».proof.Proof.Gen.Kernel
import proofs.«130233_j12317966205535_1_alg».proof.Proof.Gen.Kernel.Skeleton
import proofs.«130233_j12317966205535_1_alg».proof.Proof.Gen.Kernel.Launch
import proofs.«130233_j12317966205535_1_alg».proof.Proof.Gen.Kernel.Points
import proofs.«130233_j12317966205535_1_alg».proof.Proof.Gen.Kernel.Frame
import proofs.«130233_j12317966205535_1_alg».proof.Proof.Gen.KernelIdeal
import proofs.«130233_j12317966205535_1_alg».proof.Proof.Gen.KernelIdeal.Skeleton
import proofs.«130233_j12317966205535_1_alg».proof.Proof.Gen.KernelIdeal.Launch
import proofs.«130233_j12317966205535_1_alg».proof.Proof.Gen.KernelIdeal.Points
import proofs.«130233_j12317966205535_1_alg».proof.Proof.Gen.KernelIdeal.Frame
import proofs.«130233_j12317966205535_1_alg».proof.Proof.Gen.ReferenceIdeal
import proofs.«130233_j12317966205535_1_alg».proof.Proof.Gen.Pre_finite_inputs
import proofs.«130233_j12317966205535_1_alg».proof.Proof.Gen.KernelIdeal.Value
import proofs.«130233_j12317966205535_1_alg».proof.Proof.Gen.ReferenceIdeal.Run
import proofs.«130233_j12317966205535_1_alg».proof.Proof.Gen.ReferenceIdeal.Read
import proofs.«130233_j12317966205535_1_alg».proof.Proof.KernelValue
import proofs.«130233_j12317966205535_1_alg».proof.Proof.RefGate
import proofs.«130233_j12317966205535_1_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- The idealized kernel runs and leaves its arguments unchanged. -/
theorem frame_kernel_ideal : Cert.frame_KernelIdeal := fun m ρ _ => Cert.KernelIdeal.Gen.frame m ρ

/-- The idealized reference runs and leaves its arguments unchanged: its run, the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments the two idealized programs end with the same new hidden state: the
    kernel's array ends at `hidden` of what it finds, the reference's at `gate` of its arguments, and these are one
    function of the arguments. -/
theorem algebraic : Cert.algebraic_KernelIdeal_ReferenceIdeal := by
  intro m ρ m' ρ' _ hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14⟩ := hagree c
  rw [Cert.ReferenceIdeal.Read.val_main_v144_eq, h0, h1, h2, h3, h4, h5, h6, h7, h8, h9, h10, h11, h12, h13, h14, Cert.ReferenceIdeal.Gate.result_eq]
  exact Cert.Bridge.results_agree m c

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
